-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x1 : Shape := ⟨2, ![20000, 1]⟩
abbrev S640000 : Shape := ⟨1, ![640000]⟩
abbrev S256x128 : Shape := ⟨2, ![256, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x1 : S_.BroadcastsInDim S20000x1 (![] : Fin 0 → Fin S20000x1.rank)
  reducesTo_S20000x1_S_d0_1 : S20000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S20000x128 .f32) (main_arg1 : FVec F S20000x1 .f32) (main_arg2 : IVec S640000 32) (main_arg3 : IVec S640000 32) (main_arg4 : FVec F S256x128 .f32) (main_arg5 : FVec F S128 .f32) (main_arg6 : FVec F S128 .f32) (main_arg7 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x1 .f32 := Host.absf main_arg1
  let main_cst_0 : FVec F S_ .f32 := constant S_ .f32 0x7F800000#32
  let main_v5 : FVec F S20000x1 .f32 := broadcastInDim S20000x1 ![] bcast_S_S20000x1 main_cst_0
  let main_v6 : IVec S20000x1 1 := cmpf .olt main_v4 main_v5
  let main_c_1 : IVec S_ 1 := constantI S_ 1 1#1
  let main_v7 : IVec S_ 1 := (fun x v => Host.reduce IntOp.andi x v reducesTo_S20000x1_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S20000x128 : Shape := ⟨2, ![20000, 128]⟩
abbrev S20000x1 : Shape := ⟨2, ![20000, 1]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S20000 : Shape := ⟨1, ![20000]⟩
abbrev S128x128 : Shape := ⟨2, ![128, 128]⟩
abbrev S1x128 : Shape := ⟨2, ![1, 128]⟩
abbrev S5x8x128 : Shape := ⟨3, ![5, 8, 128]⟩
abbrev S4000x128 : Shape := ⟨2, ![4000, 128]⟩
abbrev S4000x1 : Shape := ⟨2, ![4000, 1]⟩
abbrev S1x8x128 : Shape := ⟨3, ![1, 8, 128]⟩
abbrev S4000 : Shape := ⟨1, ![4000]⟩
abbrev S8x128 : Shape := ⟨2, ![8, 128]⟩
abbrev S5x1x128 : Shape := ⟨3, ![5, 1, 128]⟩
abbrev S5x128 : Shape := ⟨2, ![5, 128]⟩

abbrev nBuf : Space → Nat
  | .hbm => 65
  | .vmem => 25
  | .smem => 0
  | _ => 0

abbrev bufTy : (tb : Table) → Fin (tcTables nBuf tb) → BufTy
  | .hbm, ⟨0, _⟩ => ⟨S20000x128, .f32⟩
  | .hbm, ⟨1, _⟩ => ⟨S20000x1, .f32⟩
  | .hbm, ⟨2, _⟩ => ⟨S640000, .i32⟩
  | .hbm, ⟨3, _⟩ => ⟨S640000, .i32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S20000x128, .f32⟩
  | .hbm, ⟨9, _⟩ => ⟨S20000x128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S20000x128, .f32⟩
  | .hbm, ⟨21, _⟩ => ⟨S640000x1, .i32⟩
  | .hbm, ⟨22, _⟩ => ⟨S20000x128, .f32⟩
  | .hbm, ⟨23, _⟩ => ⟨S_, .f32⟩
  | .hbm, ⟨24, _⟩ => ⟨S640000, .f32⟩
  | .hbm, ⟨25, _⟩ => ⟨S_, .f32⟩
  | .hbm, ⟨26, _⟩ => ⟨S20000, .f32⟩
  | .hbm, ⟨27, _⟩ => ⟨S640000x1, .i32⟩
  | .hbm, ⟨28, _⟩ => ⟨S20000, .f32⟩
  | .hbm, ⟨29, _⟩ => ⟨S_, .f32⟩
  | .hbm, ⟨30, _⟩ => ⟨S20000, .f32⟩
  | .hbm, ⟨31, _⟩ => ⟨S20000, .f32⟩
  | .hbm, ⟨32, _⟩ => ⟨S20000x1, .f32⟩
  | .hbm, ⟨33, _⟩ => ⟨S20000x128, .f32⟩
  | .hbm, ⟨34, _⟩ => ⟨S20000x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S20000x128, .f32⟩
  | .hbm, ⟨41, _⟩ => ⟨S5x8x128, .f32⟩
  | .hbm, ⟨42, _⟩ => ⟨S5x8x128, .f32⟩
  | .hbm, ⟨43, _⟩ => ⟨S5x1x128, .f32⟩
  | .hbm, ⟨44, _⟩ => ⟨S5x128, .f32⟩
  | .hbm, ⟨45, _⟩ => ⟨S_, .f32⟩
  | .hbm, ⟨46, _⟩ => ⟨S128, .f32⟩
  | .hbm, ⟨47, _⟩ => ⟨S5x1x128, .f32⟩
  | .hbm, ⟨48, _⟩ => ⟨S5x128, .f32⟩
  | .hbm, ⟨49, _⟩ => ⟨S_, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S1x128, .f32⟩
  | .hbm, ⟨64, _⟩ => ⟨S20000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S4000x128, .f32⟩
  | .local _ .vmem, ⟨24, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S20000x1_S20000x128_0_1 : S20000x1.BroadcastsInDim S20000x128 (![0, 1] : Fin 2 → Fin S20000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  slices_S256x128_S128x128_0_0 : S256x128.Slices ![0, 0] S128x128
  slices_S256x128_S128x128_128_0 : S256x128.Slices ![128, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  inb_S4000x1_S4000x1_0_0 : ∀ a, (![0, 0] : Fin 2 → Nat) a + S4000x1.size a ≤ S4000x1.size a
  h_S4000x1 : 0 < S4000x1.numel
  reduces_S4000x128_S128 : S4000x128.Reduces [0] S128
  broadcasts_S1x128_S8x128 : S1x128.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S5x8x128_S5x1x128_0_0_0 : S5x8x128.Slices ![0, 0, 0] S5x1x128
  shapeCasts_S5x1x128_S5x128 : S5x1x128.ShapeCasts S5x128
  reducesTo_S5x128_S128_d0 : S5x128.ReducesTo [0] S128
  h_S_ : 0 < S_.numel
  bcast_S_S128 : S_.BroadcastsInDim S128 (![] : Fin 0 → Fin S128.rank)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S20000x128.size a
  hwx0_0 : ∀ i : grid0.Coords, EltTy.bits .f32 = 32 ∨ (Rect.block (s := S20000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S20000x128.size a
  hwx0_1 : ∀ i : grid0.Coords, EltTy.bits .f32 = 32 ∨ (Rect.block (s := S20000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S20000x1.size a
  hwx0_2 : ∀ i : grid0.Coords, EltTy.bits .f32 = 32 ∨ (Rect.block (s := S20000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S20000x128.size a
  hwx0_6 : ∀ i : grid0.Coords, EltTy.bits .f32 = 32 ∨ (Rect.block (s := S20000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S5x8x128.size a
  hwx0_7 : ∀ i : grid0.Coords, EltTy.bits .f32 = 32 ∨ (Rect.block (s := S5x8x128) S1x8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S5x8x128.size a
  hwx0_8 : ∀ i : grid0.Coords, EltTy.bits .f32 = 32 ∨ (Rect.block (s := S5x8x128) S1x8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S20000x128.size a
  hwx1_6 : ∀ i : grid1.Coords, EltTy.bits .f32 = 32 ∨ (Rect.block (s := S20000x128) S4000x128.size (cc1_transform_6 i) (hinb1_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S1x8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_2) S1x8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v26_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x1 : Shape := ⟨2, ![20000, 1]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S20000 : Shape := ⟨1, ![20000]⟩
abbrev S20000x256 : Shape := ⟨2, ![20000, 256]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x1, .f32⟩
  | .hbm, ⟨2, _⟩ => ⟨S640000, .i32⟩
  | .hbm, ⟨3, _⟩ => ⟨S640000, .i32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S20000x128, .f32⟩
  | .hbm, ⟨9, _⟩ => ⟨S20000x128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S20000x128, .f32⟩
  | .hbm, ⟨21, _⟩ => ⟨S640000x1, .i32⟩
  | .hbm, ⟨22, _⟩ => ⟨S20000x128, .f32⟩
  | .hbm, ⟨23, _⟩ => ⟨S_, .f32⟩
  | .hbm, ⟨24, _⟩ => ⟨S640000, .f32⟩
  | .hbm, ⟨25, _⟩ => ⟨S_, .f32⟩
  | .hbm, ⟨26, _⟩ => ⟨S20000, .f32⟩
  | .hbm, ⟨27, _⟩ => ⟨S640000x1, .i32⟩
  | .hbm, ⟨28, _⟩ => ⟨S20000, .f32⟩
  | .hbm, ⟨29, _⟩ => ⟨S_, .f32⟩
  | .hbm, ⟨30, _⟩ => ⟨S20000, .f32⟩
  | .hbm, ⟨31, _⟩ => ⟨S20000, .f32⟩
  | .hbm, ⟨32, _⟩ => ⟨S20000x1, .f32⟩
  | .hbm, ⟨33, _⟩ => ⟨S20000x128, .f32⟩
  | .hbm, ⟨34, _⟩ => ⟨S20000x128, .f32⟩
  | .hbm, ⟨35, _⟩ => ⟨S20000x256, .f32⟩
  | .hbm, ⟨36, _⟩ => ⟨S20000x128, .f32⟩
  | .hbm, ⟨37, _⟩ => ⟨S1x128, .f32⟩
  | .hbm, ⟨38, _⟩ => ⟨S20000x128, .f32⟩
  | .hbm, ⟨39, _⟩ => ⟨S20000x128, .f32⟩
  | .hbm, ⟨40, _⟩ => ⟨S20000x128, .f32⟩
  | .hbm, ⟨41, _⟩ => ⟨S_, .f32⟩
  | .hbm, ⟨42, _⟩ => ⟨S20000, .f32⟩
  | .hbm, ⟨43, _⟩ => ⟨S20000x1, .f32⟩
  | .hbm, ⟨44, _⟩ => ⟨S20000x1, .f32⟩
  | .hbm, ⟨45, _⟩ => ⟨S_, .f32⟩
  | .hbm, ⟨46, _⟩ => ⟨S20000x1, .f32⟩
  | .hbm, ⟨47, _⟩ => ⟨S20000x1, .f32⟩
  | .hbm, ⟨48, _⟩ => ⟨S20000x128, .f32⟩
  | .hbm, ⟨49, _⟩ => ⟨S20000x128, .f32⟩
  | .hbm, ⟨50, _⟩ => ⟨S20000x128, .f32⟩
  | .hbm, ⟨51, _⟩ => ⟨S20000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S20000x128, .f32⟩
  | .hbm, ⟨59, _⟩ => ⟨S20000x128, .f32⟩
  | .hbm, ⟨60, _⟩ => ⟨S20000x128, .f32⟩
  | .hbm, ⟨61, _⟩ => ⟨S_, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S20000x128, .f32⟩
  | .hbm, ⟨68, _⟩ => ⟨S20000x128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S20000x128, .f32⟩
  | .hbm, ⟨75, _⟩ => ⟨S20000x128, .f32⟩
  | .hbm, ⟨76, _⟩ => ⟨S1x128, .f32⟩
  | .hbm, ⟨77, _⟩ => ⟨S20000x128, .f32⟩
  | .hbm, ⟨78, _⟩ => ⟨S20000x128, .f32⟩
  | .hbm, ⟨79, _⟩ => ⟨S1x128, .f32⟩
  | .hbm, ⟨80, _⟩ => ⟨S20000x128, .f32⟩
  | .hbm, ⟨81, _⟩ => ⟨S20000x128, .f32⟩
  | .hbm, ⟨82, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  bcast_S20000x1_S20000x128_0_1 : S20000x1.BroadcastsInDim S20000x128 (![0, 1] : Fin 2 → Fin S20000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  concatenates_S20000x128_S20000x128_S20000x256_d1 : Shape.Concatenates [S20000x128, S20000x128] S20000x256 1
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  reducesTo_S20000x128_S20000_d1 : S20000x128.ReducesTo [1] S20000
  h_S_ : 0 < S_.numel
  bcast_S_S20000x1 : S_.BroadcastsInDim S20000x1 (![] : Fin 0 → Fin S20000x1.rank)
  reducesTo_S20000x128_S128_d0 : S20000x128.ReducesTo [0] S128
  bcast_S_S128 : S_.BroadcastsInDim S128 (![] : Fin 0 → Fin S128.rank)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S20000x256_S256x128_S20000x128_1_0_0_1_n_n_wf : DotDims.WF S20000x256 S256x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf

class Facts : Prop extends Facts₀ where

variable [Facts]
-- ==== Proof.LibStats.lean ====
/-
  Extended-real mathematics behind the layer, over abstract finite index types.

  * A row divided by its clamped Euclidean norm is finite WHATEVER the row holds: if the clamped norm is +∞ the quotient
    is 0 (division by an infinity gives 0), and if it is finite then the sum of squares is finite, so every entry is.
  * On real data the "mean of squares minus squared mean" (clamped at 0) is the "mean of squared deviations", when the
    divisor is the number of samples.
  * For a positive real `w`, multiplying by `rsqrt w` is dividing by `sqrt w`.
-/
import Idealize.ShloMosaic.PureOps.Ideal
import Mathlib.Algebra.BigOperators.Fin
import Mathlib.Tactic

noncomputable section

namespace Cert.Stats

open Idealize.ShloMosaic

/-- A finite sum of reals, read in the extended reals, is the real sum. -/
theorem coe_sum {ι : Type*} (s : Finset ι) (x : ι → ℝ) : (∑ i ∈ s, ((x i : ℝ) : EReal)) = ((∑ i ∈ s, x i : ℝ) : EReal) := by
  classical
  induction s using Finset.induction_on with
  | empty => simp
  | insert a s ha ih => rw [Finset.sum_insert ha, Finset.sum_insert ha, ih, EReal.coe_add]

/-- A square is never negative on the extended reals. -/
theorem square_nonneg (a : EReal) : 0 ≤ a * a := by
  induction a using EReal.rec with
  | bot => simp
  | coe r => rw [← EReal.coe_mul]; exact_mod_cast _root_.mul_self_nonneg r
  | top => simp

/-- If a square is finite, so is its root. -/
theorem real_of_mul_self_lt_top {a : EReal} (h : a * a < ⊤) : ∃ r : ℝ, a = r := by
  induction a using EReal.rec with
  | bot => simp at h
  | coe r => exact ⟨r, rfl⟩
  | top => simp at h

/-- THE NORMALISED ENTRY IS FINITE. `x j / max (sqrt (Σ x²)) e · n` is a real for every extended-real row `x`, positive
    real floor `e` and real scale `n`. -/
theorem normalised_real {κ : Type*} [Fintype κ] (x : κ → EReal) (e n : ℝ) (he : 0 < e) (j : κ) :
    ∃ r : ℝ, Ideal.div (x j) (max (Ideal.sqrt (∑ k, x k * x k)) (e : EReal)) * (n : EReal) = (r : EReal) := by
  have hS0 : 0 ≤ ∑ k, x k * x k := Finset.sum_nonneg fun k _ => square_nonneg (x k)
  by_cases hS : (∑ k, x k * x k) = ⊤
  · refine ⟨0, ?_⟩
    rw [hS, Ideal.sqrt_top, max_eq_left le_top]
    unfold Ideal.div
    rw [if_neg (by simp), EReal.inv_top, mul_zero, zero_mul, EReal.coe_zero]
  · obtain ⟨s, hs⟩ : ∃ s : ℝ, (∑ k, x k * x k) = s := by
      induction h : (∑ k, x k * x k) using EReal.rec with
      | bot => rw [h] at hS0; simp at hS0
      | coe r => exact ⟨r, rfl⟩
      | top => exact absurd h hS
    have hs0 : 0 ≤ s := by rw [hs] at hS0; exact_mod_cast hS0
    have hx : ∀ k, ∃ r : ℝ, x k = r := fun k => real_of_mul_self_lt_top
      (lt_of_le_of_lt (Finset.single_le_sum (fun i _ => square_nonneg (x i)) (Finset.mem_univ k)) (by rw [hs]; exact EReal.coe_lt_top s))
    obtain ⟨a, ha⟩ := hx j
    have hy : max (Ideal.sqrt (s : EReal)) (e : EReal) = ((max (Real.sqrt s) e : ℝ) : EReal) := by
      rw [Ideal.sqrt_coe, if_neg (not_lt.mpr hs0)]
      exact (EReal.coe_strictMono.monotone.map_max).symm
    have hpos : (max (Real.sqrt s) e : ℝ) ≠ 0 := ne_of_gt (lt_of_lt_of_le he (le_max_right _ _))
    refine ⟨a * (1 / max (Real.sqrt s) e) * n, ?_⟩
    rw [hs, hy, ha, Ideal.div_coe hpos, ← EReal.coe_mul, ← EReal.coe_mul]

/-- Division of a real by a nonzero real, on the extended reals. -/
theorem div_coe_coe (a : ℝ) {y : ℝ} (h : y ≠ 0) : Ideal.div (a : EReal) (y : EReal) = ((a / y : ℝ) : EReal) := by
  rw [Ideal.div_coe h, ← EReal.coe_mul]; congr 1; ring

/-- THE TWO VARIANCES AGREE on real samples when the divisor is the sample count. -/
theorem variance_real {ι : Type*} [Fintype ι] (x : ι → ℝ) (N : ℝ) (hN : (Fintype.card ι : ℝ) = N) (hNpos : 0 < N) :
    max ((∑ i, x i * x i) / N - ((∑ i, x i) / N) * ((∑ i, x i) / N)) 0
      = (∑ i, (x i - (∑ i, x i) / N) * (x i - (∑ i, x i) / N)) / N := by
  set μ := (∑ i, x i) / N with hμ
  have hsum : (∑ i, x i) = μ * N := by rw [hμ]; field_simp
  have key : (∑ i, (x i - μ) * (x i - μ)) = (∑ i, x i * x i) - μ * μ * N := by
    have : ∀ i, (x i - μ) * (x i - μ) = x i * x i - 2 * μ * x i + μ * μ := fun i => by ring
    simp only [this, Finset.sum_add_distrib, Finset.sum_sub_distrib, ← Finset.mul_sum, Finset.sum_const, Finset.card_univ,
      nsmul_eq_mul, hN, hsum]
    ring
  have hne : N ≠ 0 := ne_of_gt hNpos
  have h2 : (∑ i, x i * x i) / N - μ * μ = (∑ i, (x i - μ) * (x i - μ)) / N := by rw [key]; field_simp
  rw [h2]
  exact max_eq_left (div_nonneg (Finset.sum_nonneg fun i _ => _root_.mul_self_nonneg _) hNpos.le)

/-- THE BATCH NORMALISATION, both spellings, on real samples `x`: with the divisor `N` the sample count and a positive
    offset `e`, "(x − mean) · rsqrt (max (E[x²] − mean², 0) + e)" is "(x − mean) / sqrt (E[(x − mean)²] + e)". -/
theorem batchnorm_eq {ι : Type*} [Fintype ι] (x : ι → ℝ) (N e : ℝ) (hN : (Fintype.card ι : ℝ) = N) (hNpos : 0 < N) (he : 0 < e) (i : ι) :
    ((x i : EReal) - Ideal.div (∑ i, (x i : EReal)) (N : EReal))
        * Ideal.rsqrt (max (Ideal.div (∑ i, (x i : EReal) * (x i : EReal)) (N : EReal)
            - Ideal.div (∑ i, (x i : EReal)) (N : EReal) * Ideal.div (∑ i, (x i : EReal)) (N : EReal)) 0 + (e : EReal))
      = Ideal.div ((x i : EReal) - Ideal.div (∑ i, (x i : EReal)) (N : EReal))
          (Ideal.sqrt (Ideal.div (∑ i', ((x i' : EReal) - Ideal.div (∑ i, (x i : EReal)) (N : EReal))
              * ((x i' : EReal) - Ideal.div (∑ i, (x i : EReal)) (N : EReal))) (N : EReal) + (e : EReal))) := by
  have hne : N ≠ 0 := ne_of_gt hNpos
  have hmean : Ideal.div (∑ i, (x i : EReal)) (N : EReal) = (((∑ i, x i) / N : ℝ) : EReal) := by
    rw [coe_sum, div_coe_coe _ hne]
  have hsq : (∑ i, (x i : EReal) * (x i : EReal)) = ((∑ i, x i * x i : ℝ) : EReal) := by
    rw [← coe_sum]; exact Finset.sum_congr rfl fun i _ => (EReal.coe_mul _ _).symm
  have hdev : (∑ i', ((x i' : EReal) - (((∑ i, x i) / N : ℝ) : EReal)) * ((x i' : EReal) - (((∑ i, x i) / N : ℝ) : EReal)))
      = ((∑ i', (x i' - (∑ i, x i) / N) * (x i' - (∑ i, x i) / N) : ℝ) : EReal) := by
    rw [← coe_sum]; exact Finset.sum_congr rfl fun i _ => by rw [← EReal.coe_sub, ← EReal.coe_mul]
  rw [hmean, hsq, hdev, div_coe_coe _ hne, div_coe_coe _ hne, ← EReal.coe_mul, ← EReal.coe_sub, ← EReal.coe_sub,
    show (0 : EReal) = ((0 : ℝ) : EReal) from rfl, ← (EReal.coe_strictMono.monotone.map_max), variance_real x N hN hNpos,
    ← EReal.coe_add]
  set w := (∑ i', (x i' - (∑ i, x i) / N) * (x i' - (∑ i, x i) / N)) / N + e with hw
  have hwpos : 0 < w := by
    have : 0 ≤ (∑ i', (x i' - (∑ i, x i) / N) * (x i' - (∑ i, x i) / N)) / N :=
      div_nonneg (Finset.sum_nonneg fun i _ => _root_.mul_self_nonneg _) hNpos.le
    linarith
  have hsqrt : Real.sqrt w ≠ 0 := ne_of_gt (Real.sqrt_pos.mpr hwpos)
  rw [Ideal.rsqrt_coe, if_neg (not_lt.mpr hwpos.le), if_neg (ne_of_gt hwpos), Ideal.sqrt_coe, if_neg (not_lt.mpr hwpos.le),
    Ideal.div_coe hsqrt, one_div]

/-- A sum over 20000 rows is the sum over 5 tiles of the sums over each tile's 4000 rows. -/
theorem sum_tiles {M : Type*} [AddCommMonoid M] (f : Fin 20000 → M) :
    (∑ i, f i) = ∑ t : Fin 5, ∑ r : Fin 4000, f ⟨t.val * 4000 + r.val, by omega⟩ := by
  rw [← Fintype.sum_prod_type' (f := fun (t : Fin 5) (r : Fin 4000) => f ⟨t.val * 4000 + r.val, by omega⟩)]
  refine (Fintype.sum_equiv (finProdFinEquiv (m := 5) (n := 4000)) _ _ fun p => ?_).symm
  refine congrArg f (Fin.ext ?_)
  show p.1.val * 4000 + p.2.val = p.2.val + 4000 * p.1.val
  omega

end Cert.Stats

end
-- ==== Proof.Literals.lean ====
/-
  The float literals the two programs spell, as the extended reals their words denote: the row count 20000, and the
  two small positive constants that keep a norm and a variance away from zero. Only their sign and finiteness matter
  to the argument, so the two small constants are stated as "some positive real".
-/
import Idealize.ShloMosaic.PureOps.Ideal

noncomputable section

namespace Cert.Literals

open Idealize.ShloMosaic

/-- The word of `20000.0` denotes the real 20000. -/
theorem ofBits_rows : Ideal.ofBits .f32 0x469C4000#32 = ((20000 : ℝ) : EReal) := by
  simp [Ideal.ofBits, Ideal.ieee, -EReal.coe_mul]; norm_num

/-- The word of the norm's floor (about 1e-12) denotes a positive real. -/
theorem ofBits_normFloor : ∃ e : ℝ, 0 < e ∧ Ideal.ofBits .f32 0x2B8CBCCC#32 = (e : EReal) := by
  refine ⟨_, ?_, by simp [Ideal.ofBits, Ideal.ieee, -EReal.coe_mul]; rfl⟩
  norm_num

/-- The word of the variance's offset (about 1e-5) denotes a positive real. -/
theorem ofBits_varOffset : ∃ e : ℝ, 0 < e ∧ Ideal.ofBits .f32 0x3727C5AC#32 = (e : EReal) := by
  refine ⟨_, ?_, by simp [Ideal.ofBits, Ideal.ieee, -EReal.coe_mul]; rfl⟩
  norm_num

end Cert.Literals

end
-- ==== Proof.Layer.lean ====
/-
  The layer as mathematics on the extended reals, in the two spellings the two programs use, and their equality.

  Per node (row) `i`:  pre i = [hs i, c i] · W + b  (one product over 256 coordinates, or two over 128 each);
  u i = pre i / max (‖pre i‖₂, floor) · n i.  Per column `q`, over the 20000 rows: a mean and a variance of `u · q`, the
  variance either as "mean of squares − squared mean, clamped at 0" with the sums taken tile by tile (5 tiles of 4000
  rows), or as "mean of squared deviations" over all rows at once; then
  out i q = h i q + ((u i q − mean q) · rsqrt (var q + offset) · γ q + β q)   or   … (u i q − mean q) / sqrt (var q + offset) ….

  The two agree because `u i q` is a REAL number whenever `n i` is (`Stats.normalised_real`: whatever the row holds),
  and on reals the two variances are one number and a positive number's `rsqrt` is its root's inverse.
-/
import proofs.«145054_j83476984365555_2_alg».proof.Proof.LibStats
import proofs.«145054_j83476984365555_2_alg».proof.Proof.Literals
import Idealize.ShloMosaic.Lib.ValueIdx
import Idealize.ShloMosaic.PureOps.Ideal.Laws

noncomputable section

namespace Cert.Layer

open Idealize.ShloMosaic Idealize.ShloMosaic.ValueIdx

/-- An array of extended reals of a literal 2-D / 1-D shape. -/
abbrev A2 (a b : Nat) := (⟨2, ![a, b]⟩ : Shape).Idx → EReal
abbrev A1 (a : Nat) := (⟨1, ![a]⟩ : Shape).Idx → EReal

/-! ## One row: linear layer and normalisation -/

/-- The linear layer's pre-activation at row `p`, column `q`: the two half-products and the bias. -/
def lin {n : Nat} (hs cc : A2 n 128) (W1 W2 : A2 128 128) (b : A2 1 128) (p : Fin n) (q : Fin 128) : EReal :=
  (∑ k : Fin 128, hs (ix2 p k) * W1 (ix2 k q)) + (∑ k : Fin 128, cc (ix2 p k) * W2 (ix2 k q)) + b (ix2 (0 : Fin 1) q)

/-- The row divided by its clamped Euclidean norm, then scaled by the row's degree factor. -/
def unit {n : Nat} (hs cc : A2 n 128) (nrm : A2 n 1) (W1 W2 : A2 128 128) (b : A2 1 128) (p : Fin n) (q : Fin 128) : EReal :=
  Ideal.div (lin hs cc W1 W2 b p q)
      (max (Ideal.sqrt (∑ j : Fin 128, lin hs cc W1 W2 b p j * lin hs cc W1 W2 b p j)) (Ideal.ofBits .f32 0x2B8CBCCC#32))
    * nrm (ix2 p (0 : Fin 1))

/-- `unit` at a row depends only on that row of the three row-blocked operands. -/
theorem unit_congr {n n' : Nat} (hs cc : A2 n 128) (nrm : A2 n 1) (hs' cc' : A2 n' 128) (nrm' : A2 n' 1)
    (W1 W2 : A2 128 128) (b : A2 1 128) (p : Fin n) (p' : Fin n')
    (h1 : ∀ k : Fin 128, hs (ix2 p k) = hs' (ix2 p' k)) (h2 : ∀ k : Fin 128, cc (ix2 p k) = cc' (ix2 p' k))
    (h3 : nrm (ix2 p (0 : Fin 1)) = nrm' (ix2 p' (0 : Fin 1))) (q : Fin 128) :
    unit hs cc nrm W1 W2 b p q = unit hs' cc' nrm' W1 W2 b p' q := by
  unfold unit lin
  simp only [h1, h2, h3]

/-- The normalised entry is a real whenever the row's degree factor is. -/
theorem unit_real {n : Nat} (hs cc : A2 n 128) (nrm : A2 n 1) (W1 W2 : A2 128 128) (b : A2 1 128) (p : Fin n) (q : Fin 128)
    (hn : ∃ r : ℝ, nrm (ix2 p (0 : Fin 1)) = r) : ∃ r : ℝ, unit hs cc nrm W1 W2 b p q = r := by
  obtain ⟨e, he, hE⟩ := Cert.Literals.ofBits_normFloor
  obtain ⟨nr, hnr⟩ := hn
  unfold unit
  rw [hE, hnr]
  exact Cert.Stats.normalised_real (fun j => lin hs cc W1 W2 b p j) e nr he q

/-- The reference's spelling of the pre-activation: one product over the 256 joined coordinates, a 1-D bias. -/
def linJoined {n : Nat} (cat : A2 n 256) (W : A2 256 128) (b : A1 128) (p : Fin n) (q : Fin 128) : EReal :=
  (∑ k : Fin 256, cat (ix2 p k) * W (ix2 k q)) + b (ix1 q)

/-- The two spellings of the pre-activation agree when the joined operand is the two halves side by side and the two
    weight blocks are the weight matrix's upper and lower halves. -/
theorem lin_eq_linJoined {n : Nat} (hs cc : A2 n 128) (W1 W2 : A2 128 128) (b2 : A2 1 128) (cat : A2 n 256) (W : A2 256 128) (b : A1 128)
    (hcatL : ∀ (p : Fin n) (k : Fin 128), cat (ix2 p (⟨k.val, by omega⟩ : Fin 256)) = hs (ix2 p k))
    (hcatR : ∀ (p : Fin n) (k : Fin 128), cat (ix2 p (⟨128 + k.val, by omega⟩ : Fin 256)) = cc (ix2 p k))
    (hW1 : ∀ (k q : Fin 128), W1 (ix2 k q) = W (ix2 (⟨k.val, by omega⟩ : Fin 256) q))
    (hW2 : ∀ (k q : Fin 128), W2 (ix2 k q) = W (ix2 (⟨128 + k.val, by omega⟩ : Fin 256) q))
    (hb : ∀ q : Fin 128, b2 (ix2 (0 : Fin 1) q) = b (ix1 q)) (p : Fin n) (q : Fin 128) :
    lin hs cc W1 W2 b2 p q = linJoined cat W b p q := by
  unfold lin linJoined
  rw [hb, Fin.sum_univ_add (a := 128) (b := 128) (fun k : Fin (128 + 128) => cat (ix2 p k) * W (ix2 k q))]
  congr 2
  · exact Finset.sum_congr rfl fun k _ => by rw [hW1]; exact congrArg₂ (· * ·) (hcatL p k).symm rfl
  · exact Finset.sum_congr rfl fun k _ => by rw [hW2]; exact congrArg₂ (· * ·) (hcatR p k).symm rfl

/-- `unit` in the reference's spelling: the pre-activation over the joined coordinates, and the sum of squares started
    from the zero word. -/
theorem unit_eq_joined {n : Nat} (hs cc : A2 n 128) (nrm : A2 n 1) (W1 W2 : A2 128 128) (b2 : A2 1 128) (cat : A2 n 256) (W : A2 256 128) (b : A1 128)
    (hcatL : ∀ (p : Fin n) (k : Fin 128), cat (ix2 p (⟨k.val, by omega⟩ : Fin 256)) = hs (ix2 p k))
    (hcatR : ∀ (p : Fin n) (k : Fin 128), cat (ix2 p (⟨128 + k.val, by omega⟩ : Fin 256)) = cc (ix2 p k))
    (hW1 : ∀ (k q : Fin 128), W1 (ix2 k q) = W (ix2 (⟨k.val, by omega⟩ : Fin 256) q))
    (hW2 : ∀ (k q : Fin 128), W2 (ix2 k q) = W (ix2 (⟨128 + k.val, by omega⟩ : Fin 256) q))
    (hb : ∀ q : Fin 128, b2 (ix2 (0 : Fin 1) q) = b (ix1 q)) (p : Fin n) (q : Fin 128) :
    unit hs cc nrm W1 W2 b2 p q
      = Ideal.div (linJoined cat W b p q)
          (max (Ideal.sqrt (Ideal.ofBits .f32 0x00000000#32 + ∑ j : Fin 128, linJoined cat W b p j * linJoined cat W b p j))
            (Ideal.ofBits .f32 0x2B8CBCCC#32))
        * nrm (ix2 p (0 : Fin 1)) := by
  unfold unit
  simp only [lin_eq_linJoined hs cc W1 W2 b2 cat W b hcatL hcatR hW1 hW2 hb, Ideal.ofBits_zero_f32, zero_add]

/-! ## One column: the batch statistics and the output -/

/-- Kernel spelling: sums tile by tile, "mean of squares − squared mean" clamped at zero, `rsqrt`. -/
def meanK (U : A2 20000 128) (q : Fin 128) : EReal :=
  Ideal.div (Ideal.ofBits .f32 0x00000000#32
      + ∑ t : Fin 5, ∑ r : Fin 4000, U (ix2 (⟨t.val * 4000 + r.val, by omega⟩ : Fin 20000) q)) (Ideal.ofBits .f32 0x469C4000#32)

def varK (U : A2 20000 128) (q : Fin 128) : EReal :=
  max (Ideal.div (Ideal.ofBits .f32 0x00000000#32
      + ∑ t : Fin 5, ∑ r : Fin 4000, U (ix2 (⟨t.val * 4000 + r.val, by omega⟩ : Fin 20000) q)
          * U (ix2 (⟨t.val * 4000 + r.val, by omega⟩ : Fin 20000) q)) (Ideal.ofBits .f32 0x469C4000#32)
      - meanK U q * meanK U q) (Ideal.ofBits .f32 0x00000000#32)

def outK (Hin U : A2 20000 128) (G B : A2 1 128) (i : Fin 20000) (q : Fin 128) : EReal :=
  Hin (ix2 i q) + ((U (ix2 i q) - meanK U q) * Ideal.rsqrt (varK U q + Ideal.ofBits .f32 0x3727C5AC#32) * G (ix2 (0 : Fin 1) q)
    + B (ix2 (0 : Fin 1) q))

/-- Reference spelling: sums over all rows, "mean of squared deviations", division by the root. -/
def meanR (U : A2 20000 128) (q : Fin 128) : EReal :=
  Ideal.div (Ideal.ofBits .f32 0x00000000#32 + ∑ i : Fin 20000, U (ix2 i q)) (Ideal.ofBits .f32 0x469C4000#32)

def varR (U : A2 20000 128) (q : Fin 128) : EReal :=
  Ideal.div (Ideal.ofBits .f32 0x00000000#32 + ∑ i : Fin 20000, (U (ix2 i q) - meanR U q) * (U (ix2 i q) - meanR U q))
    (Ideal.ofBits .f32 0x469C4000#32)

def outR (Hin U : A2 20000 128) (g b : A1 128) (i : Fin 20000) (q : Fin 128) : EReal :=
  Hin (ix2 i q) + (Ideal.div (U (ix2 i q) - meanR U q) (Ideal.sqrt (varR U q + Ideal.ofBits .f32 0x3727C5AC#32)) * g (ix1 q) + b (ix1 q))

/-- The tile-by-tile mean is the all-rows mean. -/
theorem meanK_eq_meanR (U : A2 20000 128) (q : Fin 128) : meanK U q = meanR U q := by
  unfold meanK meanR
  rw [Cert.Stats.sum_tiles (fun i : Fin 20000 => U (ix2 i q))]

/-- THE TWO OUTPUTS AGREE when the normalised array holds reals. -/
theorem outK_eq_outR (Hin U : A2 20000 128) (G B : A2 1 128) (g b : A1 128)
    (hU : ∀ (i : Fin 20000) (q : Fin 128), ∃ r : ℝ, U (ix2 i q) = r)
    (hG : ∀ q : Fin 128, G (ix2 (0 : Fin 1) q) = g (ix1 q)) (hB : ∀ q : Fin 128, B (ix2 (0 : Fin 1) q) = b (ix1 q))
    (i : Fin 20000) (q : Fin 128) : outK Hin U G B i q = outR Hin U g b i q := by
  choose x hx using hU
  obtain ⟨e, he, hE⟩ := Cert.Literals.ofBits_varOffset
  have hsq : (∑ t : Fin 5, ∑ r : Fin 4000, U (ix2 (⟨t.val * 4000 + r.val, by omega⟩ : Fin 20000) q)
      * U (ix2 (⟨t.val * 4000 + r.val, by omega⟩ : Fin 20000) q)) = ∑ i : Fin 20000, U (ix2 i q) * U (ix2 i q) :=
    (Cert.Stats.sum_tiles (fun i : Fin 20000 => U (ix2 i q) * U (ix2 i q))).symm
  unfold outK outR varK varR
  rw [hsq, meanK_eq_meanR, hG, hB]
  unfold meanR
  simp only [Ideal.ofBits_zero_f32, zero_add, Cert.Literals.ofBits_rows, hE, hx]
  rw [Cert.Stats.batchnorm_eq (fun i : Fin 20000 => x i q) 20000 e (by simp) (by norm_num) he i]

end Cert.Layer

end
-- ==== Proof.FiniteNorm.lean ====
/-
  What the argument uses of the precondition: every entry of the degree-normalisation column is a real number.
  The precondition is a conjunction of six "all entries have absolute value below +∞" tests; the second is this column's.
-/
import proofs.«145054_j83476984365555_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine

noncomputable section

namespace Cert.FiniteNorm

open Idealize.ShloMosaic Cert.Pre_finite_inputs

instance : Subsingleton S_.Idx := ⟨fun a b => funext fun d => d.elim0⟩

/-- An extended real whose absolute value is below +∞ is a real. -/
theorem real_of_abs_lt_top (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]

/-- Under the precondition every entry of the normalisation column is a real. -/
theorem norm_real (x0 : FVec Ideal S20000x128 .f32) (x1 : FVec Ideal S20000x1 .f32) (x2 x3 : IVec S640000 32)
    (x4 : FVec Ideal S256x128 .f32) (x5 x6 x7 : FVec Ideal S128 .f32)
    (h : fn (F := Ideal) x0 x1 x2 x3 x4 x5 x6 x7 = fun _ => 1#1) (i : S20000x1.Idx) : ∃ r : ℝ, x1 i = r := by
  have h0 := congrFun h ValueIdx.ix0
  dsimp only [fn, fn_part1] at h0
  have h1 := (IntOp.andi_eq_one.mp h0).1
  have h2 := (IntOp.andi_eq_one.mp h1).1
  have h3 := (IntOp.andi_eq_one.mp h2).1
  have h4 := (IntOp.andi_eq_one.mp h3).1
  have h5 := (IntOp.andi_eq_one.mp h4).2
  have h6 := Host.reduce_andi_all _ _ _ _ ValueIdx.ix0 h5 i
  exact real_of_abs_lt_top (x1 i) h6

end Cert.FiniteNorm

end
-- ==== Proof.ResultRun.lean ====
/-
  The idealized kernel's run with its RESULT named. The program is a host stretch, the linear-and-normalise region, a
  second host stretch (the batch statistics) and the finalising region. Every weakly fair execution terminates, the
  arguments end as launched, and the result array ends at the contents the last segment boundary assigns it: what the
  finalising region's write-backs leave in it.
-/
import proofs.«145054_j83476984365555_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read at the last boundary's contents. -/
theorem run : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.Linear.lean ====
/-
  The linear-and-normalise region, read as three functions of the arrays it finds.

  Each of the five grid points loads rows 4000·t … 4000·t + 3999 of the two feature halves and of the degree column,
  and the two weight blocks and the bias whole. It stores the normalised, scaled rows (`Layer.unit`) into its block of
  the first output, and the block's column sums of those entries and of their squares, repeated over eight sublanes,
  into slab `t` of the second and third outputs. The blocks tile each output, so after the region each array is one
  function of the region's inputs: `final6`, `final7`, `final8`.
-/
import proofs.«145054_j83476984365555_2_alg».proof.Proof.Gen.KernelIdeal.Frame
import proofs.«145054_j83476984365555_2_alg».proof.Proof.Layer
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Linear

open Cert.KernelIdeal Cert.KernelIdeal.Gen
open Idealize.ShloMosaic Idealize.ShloMosaic.TcCoe Idealize.SL.Sem Idealize.ShloMosaic.ValueIdx
open Idealize.ShloMosaic.Pipeline (Dat)
open Cert.Layer (lin unit unit_congr)

/-- A column `[a, 1]` broadcast along the lanes reads, at `(p, q)`, the column at `p`. -/
theorem bcastCol (v : FVec Ideal S4000x1 .f32) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A vector of row values re-laid as a column reads, at `(p, 0)`, the value of row `p`. -/
theorem castCol (v : FVec Ideal S4000 .f32) (h : S4000.ShapeCasts S4000x1) (p : Fin 4000) :
    shapeCast S4000x1 v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

/-- The lane sum of a block, at row `p`: the sum of the row's 128 entries. -/
theorem rowSum (x : FVec Ideal S4000x128 .f32) (hφ : FKind.Formats .f32) (hacc : (0x00000000#32 : BitVec 32) = 0x00000000#32) (p : Fin 4000) :
    multiReduction .add [1] S4000 x 0x00000000#32 reduces_S4000x128_S4000 hφ hacc (ix1 p) = ∑ k : Fin 128, x (ix2 p k) := by
  refine (Ideal.multiReduction_add_single x 0x00000000#32 reduces_S4000x128_S4000 hφ hacc (ix1 p)).trans ?_
  refine Finset.sum_congr rfl fun k _ => congrArg x (funext fun a => Fin.ext ?_)
  match a with
  | ⟨0, _⟩ => rfl
  | ⟨1, _⟩ => rfl

/-- The sublane sum of a block, at column `q`: the sum of the column's 4000 entries. -/
theorem colSum (x : FVec Ideal S4000x128 .f32) (hφ : FKind.Formats .f32) (hacc : (0x00000000#32 : BitVec 32) = 0x00000000#32) (q : Fin 128) :
    multiReduction .add [0] S128 x 0x00000000#32 reduces_S4000x128_S128 hφ hacc (ix1 q) = ∑ r : Fin 4000, x (ix2 r q) := by
  refine (Ideal.multiReduction_add_single x 0x00000000#32 reduces_S4000x128_S128 hφ hacc (ix1 q)).trans ?_
  refine Finset.sum_congr rfl fun k _ => congrArg x (funext fun a => Fin.ext ?_)
  match a with
  | ⟨0, _⟩ => rfl
  | ⟨1, _⟩ => rfl

theorem mm_lhs0 (i : S4000x128.Idx) (u : dot_S4000x128_S128x128_S4000x128_1_0_0_1_n_n.contr.Idx) : (dot_S4000x128_S128x128_S4000x128_1_0_0_1_n_n.lhsIdx i u 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mm_lhs1 (i : S4000x128.Idx) (u : dot_S4000x128_S128x128_S4000x128_1_0_0_1_n_n.contr.Idx) : (dot_S4000x128_S128x128_S4000x128_1_0_0_1_n_n.lhsIdx i u 1).val = (u ⟨0, by decide⟩).val :=
  dot_S4000x128_S128x128_S4000x128_1_0_0_1_n_n.lhsIdx_val_of_single rfl i u
theorem mm_rhs0 (i : S4000x128.Idx) (u : dot_S4000x128_S128x128_S4000x128_1_0_0_1_n_n.contr.Idx) : (dot_S4000x128_S128x128_S4000x128_1_0_0_1_n_n.rhsIdx i u 0).val = (u ⟨0, by decide⟩).val :=
  dot_S4000x128_S128x128_S4000x128_1_0_0_1_n_n.rhsIdx_val_of_single rfl i u
theorem mm_rhs1 (i : S4000x128.Idx) (u : dot_S4000x128_S128x128_S4000x128_1_0_0_1_n_n.contr.Idx) : (dot_S4000x128_S128x128_S4000x128_1_0_0_1_n_n.rhsIdx i u 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block times a weight matrix into a zero accumulator, at `(p, q)`: the sum over the 128 contracted coordinates. -/
theorem mm (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact mm_lhs0 _ _
    | ⟨1, _⟩ => exact (mm_lhs1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (mm_rhs0 _ _).trans hk
    | ⟨1, _⟩ => exact mm_rhs1 _ _)
  rw [el, er]

/-- The body's first stored value (the normalised, scaled block) at row `p`, column `q`. -/
theorem pay3_at (hs cc : Vec Ideal S4000x128 .f32) (W1 W2 : Vec Ideal S128x128 .f32) (b : Vec Ideal S1x128 .f32)
    (nrm : Vec Ideal S4000x1 .f32) (p : Fin 4000) (q : Fin 128) :
    k0_pay3 (F := Ideal) hs cc W1 W2 b nrm (ix2 p q) = unit hs cc nrm W1 W2 b p q := by
  unfold k0_pay3
  simp only [shapeCast_self]
  generalize hA : addf (F := Ideal) (addf _ _) (broadcastTo S4000x128 _ _) = A
  have hAl : ∀ (p' : Fin 4000) (q' : Fin 128), A (ix2 p' q') = lin hs cc W1 W2 b p' q' := by
    intro p' q'
    rw [← hA, addf_apply, addf_apply, mm, mm, broadcastTo_1b_ab_apply]
    rfl
  clear hA
  rw [mulf_apply, divf_apply, bcastCol, bcastCol, maximumf_apply]
  show Ideal.div (A (ix2 p q)) (max (Ideal.sqrt (shapeCast S4000x1 _ _ (ix2 p (0 : Fin 1)))) (Ideal.ofBits .f32 0x2B8CBCCC#32))
      * nrm (ix2 p (0 : Fin 1)) = _
  rw [castCol, rowSum]
  simp only [mulf_apply, hAl]
  rfl

/-- The statistics blocks' stored values: every sublane `s` of column `q` holds the block's column sum of the normalised
    entries (first output), of their squares (second output). -/
theorem pay7_at (hs cc : Vec Ideal S4000x128 .f32) (W1 W2 : Vec Ideal S128x128 .f32) (b : Vec Ideal S1x128 .f32)
    (nrm : Vec Ideal S4000x1 .f32) (s : Fin 8) (q : Fin 128) :
    k0_pay1 (F := Ideal) (k0_pay5 hs cc W1 W2 b nrm) (ix3 (0 : Fin 1) s q) = ∑ r : Fin 4000, unit hs cc nrm W1 W2 b r q := by
  unfold k0_pay1 k0_pay5
  simp only [shapeCast_self]
  rw [shapeCast_ab_1ab_apply, broadcastTo_1b_ab_apply, shapeCast_a_1a_apply]
  refine (colSum _ _ _ q).trans ?_
  exact Finset.sum_congr rfl fun r _ => pay3_at hs cc W1 W2 b nrm r q

theorem pay8_at (hs cc : Vec Ideal S4000x128 .f32) (W1 W2 : Vec Ideal S128x128 .f32) (b : Vec Ideal S1x128 .f32)
    (nrm : Vec Ideal S4000x1 .f32) (s : Fin 8) (q : Fin 128) :
    k0_pay2 (F := Ideal) (k0_pay4 hs cc W1 W2 b nrm) (ix3 (0 : Fin 1) s q)
      = ∑ r : Fin 4000, unit hs cc nrm W1 W2 b r q * unit hs cc nrm W1 W2 b r q := by
  unfold k0_pay2 k0_pay4
  simp only [shapeCast_self]
  rw [shapeCast_ab_1ab_apply, broadcastTo_1b_ab_apply, shapeCast_a_1a_apply]
  refine (colSum _ _ _ q).trans ?_
  refine Finset.sum_congr rfl fun r _ => ?_
  rw [mulf_apply, pay3_at]

/-- The per-tile column sums as one function of the arrays: slab `t`, any sublane, column `q`. -/
def sumArr (HS CC : FVec Ideal S20000x128 .f32) (NRM : FVec Ideal S20000x1 .f32) (W1 W2 : FVec Ideal S128x128 .f32)
    (b : FVec Ideal S1x128 .f32) : FVec Ideal S5x8x128 .f32 := fun i =>
  ∑ r : Fin 4000, unit HS CC NRM W1 W2 b (⟨(i 0).val * 4000 + r.val, by have h5 : (i 0).val < 5 := (i 0).isLt; have := r.isLt; omega⟩ : Fin 20000)
    (⟨(i 2).val, (i 2).isLt⟩ : Fin 128)

/-- The per-tile column sums of squares. -/
def sqArr (HS CC : FVec Ideal S20000x128 .f32) (NRM : FVec Ideal S20000x1 .f32) (W1 W2 : FVec Ideal S128x128 .f32)
    (b : FVec Ideal S1x128 .f32) : FVec Ideal S5x8x128 .f32 := fun i =>
  ∑ r : Fin 4000, unit HS CC NRM W1 W2 b (⟨(i 0).val * 4000 + r.val, by have h5 : (i 0).val < 5 := (i 0).isLt; have := r.isLt; omega⟩ : Fin 20000)
      (⟨(i 2).val, (i 2).isLt⟩ : Fin 128)
    * unit HS CC NRM W1 W2 b (⟨(i 0).val * 4000 + r.val, by have h5 : (i 0).val < 5 := (i 0).isLt; have := r.isLt; omega⟩ : Fin 20000)
      (⟨(i 2).val, (i 2).isLt⟩ : Fin 128)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the five grid points: the three row-blocked inputs and the normalised output sit at
    block row `t`, the two weight halves and the bias at their only block, the two statistics outputs at slab `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

variable (V : (c : Dev nD) → (b : Ref sig .tc) → Buf (Elt Ideal) ((c : Thread nD τ).loc b))

/-- The normalised array as one function of the arrays the region finds. -/
def unitArr (HS CC : FVec Ideal S20000x128 .f32) (NRM : FVec Ideal S20000x1 .f32) (W1 W2 : FVec Ideal S128x128 .f32)
    (b : FVec Ideal S1x128 .f32) : FVec Ideal S20000x128 .f32 := fun i =>
  unit HS CC NRM W1 W2 b (⟨(i 0).val, (i 0).isLt⟩ : Fin 20000) (⟨(i 1).val, (i 1).isLt⟩ : Fin 128)

/-- The weight halves and the bias are staged whole at every point. -/
theorem blk3 (c : Dev nD) (t : Fin cfg0.N) : iblk0 V c 3 t = V c main_v21 := by
  obtain ⟨-, -, -, -, -, -, e30, e31, -⟩ := idx_facts t
  funext y
  refine congrArg (V c main_v21) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem blk4 (c : Dev nD) (t : Fin cfg0.N) : iblk0 V c 4 t = V c main_v22 := by
  obtain ⟨-, -, -, -, -, -, -, -, e40, e41, -⟩ := idx_facts t
  funext y
  refine congrArg (V c main_v22) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem blk5 (c : Dev nD) (t : Fin cfg0.N) : iblk0 V c 5 t = V c main_v23 := by
  obtain ⟨-, -, -, -, -, -, -, -, -, -, e50, e51, -⟩ := idx_facts t
  funext y
  refine congrArg (V c main_v23) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Row `r` of point `t`'s blocks is row `4000·t + r` of the arrays. -/
theorem row0 (c : Dev nD) (t : Fin cfg0.N) (r : Fin 4000) (h : t.val * 4000 + r.val < 20000) (k : Fin 128) :
    iblk0 V c 0 t (ix2 r k) = V c main_v1 (ix2 (⟨t.val * 4000 + r.val, h⟩ : Fin 20000) k) := by
  obtain ⟨e00, e01, -⟩ := idx_facts t
  refine congrArg (V c main_v1) (funext fun a => Fin.ext ?_)
  match a with
  | ⟨0, _⟩ => show win0_0.index t (0 : Fin 2) * 4000 + 1 * r.val = t.val * 4000 + r.val; omega
  | ⟨1, _⟩ => show win0_0.index t (1 : Fin 2) * 128 + 1 * k.val = k.val; omega
theorem row1 (c : Dev nD) (t : Fin cfg0.N) (r : Fin 4000) (h : t.val * 4000 + r.val < 20000) (k : Fin 128) :
    iblk0 V c 1 t (ix2 r k) = V c main_v20 (ix2 (⟨t.val * 4000 + r.val, h⟩ : Fin 20000) k) := by
  obtain ⟨-, -, e10, e11, -⟩ := idx_facts t
  refine congrArg (V c main_v20) (funext fun a => Fin.ext ?_)
  match a with
  | ⟨0, _⟩ => show win0_1.index t (0 : Fin 2) * 4000 + 1 * r.val = t.val * 4000 + r.val; omega
  | ⟨1, _⟩ => show win0_1.index t (1 : Fin 2) * 128 + 1 * k.val = k.val; omega
theorem row2 (c : Dev nD) (t : Fin cfg0.N) (r : Fin 4000) (h : t.val * 4000 + r.val < 20000) :
    iblk0 V c 2 t (ix2 r (0 : Fin 1)) = V c main_arg1 (ix2 (⟨t.val * 4000 + r.val, h⟩ : Fin 20000) (0 : Fin 1)) := by
  obtain ⟨-, -, -, -, e20, e21, -⟩ := idx_facts t
  refine congrArg (V c main_arg1) (funext fun a => Fin.ext ?_)
  match a with
  | ⟨0, _⟩ => show win0_2.index t (0 : Fin 2) * 4000 + 1 * r.val = t.val * 4000 + r.val; omega
  | ⟨1, _⟩ => show win0_2.index t (1 : Fin 2) * 1 + 1 * 0 = 0; omega

/-- The block's normalised entry is the array's, at the row the block sits at. -/
theorem unit_blk (c : Dev nD) (t : Fin cfg0.N) (r : Fin 4000) (h : t.val * 4000 + r.val < 20000) (q : Fin 128) :
    unit (iblk0 V c 0 t) (iblk0 V c 1 t) (iblk0 V c 2 t) (iblk0 V c 3 t) (iblk0 V c 4 t) (iblk0 V c 5 t) r q
      = unit (V c main_v1) (V c main_v20) (V c main_arg1) (V c main_v21) (V c main_v22) (V c main_v23)
          (⟨t.val * 4000 + r.val, h⟩ : Fin 20000) q := by
  rw [blk3, blk4, blk5]
  exact unit_congr _ _ _ _ _ _ _ _ _ r _ (row0 V c t r h) (row1 V c t r h) (row2 V c t r h) q

/-- What point `t` writes back to the normalised array is block `t` of `unitArr`. -/
theorem flushed6 (c : Dev nD) (t : Fin cfg0.N) :
    (dat0 V c).flushed 6 t = ((cfg0.win 6).blk t).view.read (Elt Ideal)
      (unitArr (V c main_v1) (V c main_v20) (V c main_arg1) (V c main_v21) (V c main_v22) (V c main_v23)) := by
  show (cfg0.win 6).cut (grid0.coords t) ((dat0 V c).after 6 t) = _
  rw [after0_6]
  unfold out0_6
  rw [View.canon_unit_zero hz2]
  simp only [View.ld_unit_zero (S := S4000x128) hz2, View.ld_unit_zero (S := S128x128) hz2, View.ld_unit_zero (S := S1x128) hz2,
    View.ld_unit_zero (S := S4000x1) hz2]
  have ht : t.val < 5 := t.isLt
  obtain ⟨-, -, -, -, -, -, -, -, -, -, -, -, e60, e61, -⟩ := idx_facts t
  funext j
  obtain ⟨p, q, rfl⟩ : ∃ (p : Fin 4000) (q : Fin 128), j = ix2 p q := ⟨j 0, j 1, eq_ix2 j⟩
  refine (pay3_at _ _ _ _ _ _ p q).trans ?_
  have hp : (⟨t.val * 4000 + p.val, by omega⟩ : Fin 20000)
      = ⟨((((cfg0.win 6).blk t).view.emb (ix2 p q)) 0).val, ((((cfg0.win 6).blk t).view.emb (ix2 p q)) 0).isLt⟩ :=
    Fin.ext (by show t.val * 4000 + p.val = win0_6.index t (0 : Fin 2) * 4000 + 1 * p.val; omega)
  have hq : q = (⟨((((cfg0.win 6).blk t).view.emb (ix2 p q)) 1).val, ((((cfg0.win 6).blk t).view.emb (ix2 p q)) 1).isLt⟩ : Fin 128) :=
    Fin.ext (by show q.val = win0_6.index t (1 : Fin 2) * 128 + 1 * q.val; omega)
  refine ((unit_blk V c t p (by omega) q).trans
    (congrArg₂ (unit (V c main_v1) (V c main_v20) (V c main_arg1) (V c main_v21) (V c main_v22) (V c main_v23)) hp hq)).trans ?_
  rfl

theorem mem_blk6 (t : Fin cfg0.N) (i : S20000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v26_0).slice (win0_6.rect t)).set ↔ _
  rw [View.set_slice_whole, Rect.mem_set_unit]
  exact Iff.rfl

theorem cover6 (i : S20000x128.Idx) : ∃ t : Fin cfg0.N, (cfg0.win 6).flush t = true ∧ i ∈ ((cfg0.win 6).blk t).view.set := by
  have hi0 : (i 0).val < 20000 := (i 0).isLt
  have hi1 : (i 1).val < 128 := (i 1).isLt
  have ht : (i 0).val / 4000 < 5 := by omega
  obtain ⟨-, -, -, -, -, -, -, -, -, -, -, -, e60, e61, -⟩ := idx_facts ⟨(i 0).val / 4000, ht⟩
  refine ⟨⟨(i 0).val / 4000, ht⟩, flush0_6 _, ?_⟩
  rw [mem_blk6]
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win0_6.index ⟨(i 0).val / 4000, ht⟩ (1 : Fin 2) * 128 ≤ (i 1).val ∧ (i 1).val < win0_6.index ⟨(i 0).val / 4000, ht⟩ (1 : Fin 2) * 128 + 128
    rw [e61]; omega

/-- THE NORMALISED ARRAY after the linear region. -/
theorem final6 (c : Dev nD) : (dat0 V c).arrAt 6 cfg0.N
    = unitArr (V c main_v1) (V c main_v20) (V c main_arg1) (V c main_v21) (V c main_v22) (V c main_v23) :=
  (dat0 V c).arrAt_eq_of_cover 6 _ (fun t _ => flushed6 V c t) cover6

/-- What point `t` writes back to the column-sum array is slab `t` of `sumArr`. -/
theorem flushed7 (c : Dev nD) (t : Fin cfg0.N) :
    (dat0 V c).flushed 7 t = ((cfg0.win 7).blk t).view.read (Elt Ideal)
      (sumArr (V c main_v1) (V c main_v20) (V c main_arg1) (V c main_v21) (V c main_v22) (V c main_v23)) := by
  show (cfg0.win 7).cut (grid0.coords t) ((dat0 V c).after 7 t) = _
  rw [after0_7]
  unfold out0_7
  rw [View.canon_unit_zero hz3]
  simp only [View.ld_unit_zero (S := S4000x128) hz2, View.ld_unit_zero (S := S128x128) hz2, View.ld_unit_zero (S := S1x128) hz2,
    View.ld_unit_zero (S := S4000x1) hz2]
  have ht : t.val < 5 := t.isLt
  obtain ⟨-, -, -, -, -, -, -, -, -, -, -, -, -, -, e70, e71, e72, e80, e81, e82⟩ := idx_facts t
  funext j
  obtain ⟨u, s, q, rfl⟩ : ∃ (u : Fin 1) (s : Fin 8) (q : Fin 128), j = ix3 u s q := ⟨j 0, j 1, j 2, eq_ix3 j⟩
  obtain rfl : u = 0 := Fin.ext (by omega)
  refine (pay7_at _ _ _ _ _ _ s q).trans ?_
  have h0 : ((((cfg0.win 7).blk t).view.emb (ix3 (0 : Fin 1) s q)) 0).val < 5 := ((((cfg0.win 7).blk t).view.emb (ix3 (0 : Fin 1) s q)) 0).isLt
  have hp : ∀ r : Fin 4000, (⟨t.val * 4000 + r.val, by have := r.isLt; omega⟩ : Fin 20000)
      = ⟨((((cfg0.win 7).blk t).view.emb (ix3 (0 : Fin 1) s q)) 0).val * 4000 + r.val, by have := r.isLt; omega⟩ := fun r =>
    Fin.ext (by show t.val * 4000 + r.val = (win0_7.index t (0 : Fin 3) * 1 + 1 * 0) * 4000 + r.val; omega)
  have hq : q = (⟨((((cfg0.win 7).blk t).view.emb (ix3 (0 : Fin 1) s q)) 2).val, ((((cfg0.win 7).blk t).view.emb (ix3 (0 : Fin 1) s q)) 2).isLt⟩ : Fin 128) :=
    Fin.ext (by show q.val = win0_7.index t (2 : Fin 3) * 128 + 1 * q.val; omega)
  refine (Finset.sum_congr rfl fun r _ => (unit_blk V c t r (by have := r.isLt; omega) q).trans
      (congrArg₂ (unit (V c main_v1) (V c main_v20) (V c main_arg1) (V c main_v21) (V c main_v22) (V c main_v23)) (hp r) hq)).trans ?_
  rfl

theorem mem_blk7 (t : Fin cfg0.N) (i : S5x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v26_1).slice (win0_7.rect t)).set ↔ _
  rw [View.set_slice_whole, Rect.mem_set_unit]
  exact Iff.rfl

theorem cover7 (i : S5x8x128.Idx) : ∃ t : Fin cfg0.N, (cfg0.win 7).flush t = true ∧ i ∈ ((cfg0.win 7).blk t).view.set := by
  have hi0 : (i 0).val < 5 := (i 0).isLt
  have hi1 : (i 1).val < 8 := (i 1).isLt
  have hi2 : (i 2).val < 128 := (i 2).isLt
  obtain ⟨-, -, -, -, -, -, -, -, -, -, -, -, -, -, e70, e71, e72, e80, e81, e82⟩ := idx_facts ⟨(i 0).val, hi0⟩
  refine ⟨⟨(i 0).val, hi0⟩, flush0_7 _, ?_⟩
  rw [mem_blk7]
  intro a
  match a with
  | ⟨0, _⟩ =>
    show win0_7.index ⟨(i 0).val, hi0⟩ (0 : Fin 3) * 1 ≤ (i 0).val ∧ (i 0).val < win0_7.index ⟨(i 0).val, hi0⟩ (0 : Fin 3) * 1 + 1
    rw [e70]; show (i 0).val * 1 ≤ (i 0).val ∧ (i 0).val < (i 0).val * 1 + 1; omega
  | ⟨1, _⟩ =>
    show win0_7.index ⟨(i 0).val, hi0⟩ (1 : Fin 3) * 8 ≤ (i 1).val ∧ (i 1).val < win0_7.index ⟨(i 0).val, hi0⟩ (1 : Fin 3) * 8 + 8
    rw [e71]; omega
  | ⟨2, _⟩ =>
    show win0_7.index ⟨(i 0).val, hi0⟩ (2 : Fin 3) * 128 ≤ (i 2).val ∧ (i 2).val < win0_7.index ⟨(i 0).val, hi0⟩ (2 : Fin 3) * 128 + 128
    rw [e72]; omega

theorem final7 (c : Dev nD) : (dat0 V c).arrAt 7 cfg0.N
    = sumArr (V c main_v1) (V c main_v20) (V c main_arg1) (V c main_v21) (V c main_v22) (V c main_v23) :=
  (dat0 V c).arrAt_eq_of_cover 7 _ (fun t _ => flushed7 V c t) cover7

/-- What point `t` writes back to the column-sum-of-squares array is slab `t` of `sqArr`. -/
theorem flushed8 (c : Dev nD) (t : Fin cfg0.N) :
    (dat0 V c).flushed 8 t = ((cfg0.win 8).blk t).view.read (Elt Ideal)
      (sqArr (V c main_v1) (V c main_v20) (V c main_arg1) (V c main_v21) (V c main_v22) (V c main_v23)) := by
  show (cfg0.win 8).cut (grid0.coords t) ((dat0 V c).after 8 t) = _
  rw [after0_8]
  unfold out0_8
  rw [View.canon_unit_zero hz3]
  simp only [View.ld_unit_zero (S := S4000x128) hz2, View.ld_unit_zero (S := S128x128) hz2, View.ld_unit_zero (S := S1x128) hz2,
    View.ld_unit_zero (S := S4000x1) hz2]
  have ht : t.val < 5 := t.isLt
  obtain ⟨-, -, -, -, -, -, -, -, -, -, -, -, -, -, e70, e71, e72, e80, e81, e82⟩ := idx_facts t
  funext j
  obtain ⟨u, s, q, rfl⟩ : ∃ (u : Fin 1) (s : Fin 8) (q : Fin 128), j = ix3 u s q := ⟨j 0, j 1, j 2, eq_ix3 j⟩
  obtain rfl : u = 0 := Fin.ext (by omega)
  refine (pay8_at _ _ _ _ _ _ s q).trans ?_
  have h0 : ((((cfg0.win 8).blk t).view.emb (ix3 (0 : Fin 1) s q)) 0).val < 5 := ((((cfg0.win 8).blk t).view.emb (ix3 (0 : Fin 1) s q)) 0).isLt
  have hp : ∀ r : Fin 4000, (⟨t.val * 4000 + r.val, by have := r.isLt; omega⟩ : Fin 20000)
      = ⟨((((cfg0.win 8).blk t).view.emb (ix3 (0 : Fin 1) s q)) 0).val * 4000 + r.val, by have := r.isLt; omega⟩ := fun r =>
    Fin.ext (by show t.val * 4000 + r.val = (win0_8.index t (0 : Fin 3) * 1 + 1 * 0) * 4000 + r.val; omega)
  have hq : q = (⟨((((cfg0.win 8).blk t).view.emb (ix3 (0 : Fin 1) s q)) 2).val, ((((cfg0.win 8).blk t).view.emb (ix3 (0 : Fin 1) s q)) 2).isLt⟩ : Fin 128) :=
    Fin.ext (by show q.val = win0_8.index t (2 : Fin 3) * 128 + 1 * q.val; omega)
  refine (Finset.sum_congr rfl fun r _ => congrArg₂ (· * ·) ((unit_blk V c t r (by have := r.isLt; omega) q).trans (congrArg₂ (unit (V c main_v1) (V c main_v20) (V c main_arg1) (V c main_v21) (V c main_v22) (V c main_v23)) (hp r) hq))
      ((unit_blk V c t r (by have := r.isLt; omega) q).trans (congrArg₂ (unit (V c main_v1) (V c main_v20) (V c main_arg1) (V c main_v21) (V c main_v22) (V c main_v23)) (hp r) hq))).trans ?_
  rfl

theorem mem_blk8 (t : Fin cfg0.N) (i : S5x8x128.Idx) :
    i ∈ ((cfg0.win 8).blk t).view.set ↔ ∀ a : Fin 3, win0_8.index t a * S1x8x128.size a ≤ (i a).val ∧ (i a).val < win0_8.index t a * S1x8x128.size a + S1x8x128.size a := by
  show i ∈ ((View.whole main_v26_2).slice (win0_8.rect t)).set ↔ _
  rw [View.set_slice_whole, Rect.mem_set_unit]
  exact Iff.rfl

theorem cover8 (i : S5x8x128.Idx) : ∃ t : Fin cfg0.N, (cfg0.win 8).flush t = true ∧ i ∈ ((cfg0.win 8).blk t).view.set := by
  have hi0 : (i 0).val < 5 := (i 0).isLt
  have hi1 : (i 1).val < 8 := (i 1).isLt
  have hi2 : (i 2).val < 128 := (i 2).isLt
  obtain ⟨-, -, -, -, -, -, -, -, -, -, -, -, -, -, e70, e71, e72, e80, e81, e82⟩ := idx_facts ⟨(i 0).val, hi0⟩
  refine ⟨⟨(i 0).val, hi0⟩, flush0_8 _, ?_⟩
  rw [mem_blk8]
  intro a
  match a with
  | ⟨0, _⟩ =>
    show win0_8.index ⟨(i 0).val, hi0⟩ (0 : Fin 3) * 1 ≤ (i 0).val ∧ (i 0).val < win0_8.index ⟨(i 0).val, hi0⟩ (0 : Fin 3) * 1 + 1
    rw [e80]; show (i 0).val * 1 ≤ (i 0).val ∧ (i 0).val < (i 0).val * 1 + 1; omega
  | ⟨1, _⟩ =>
    show win0_8.index ⟨(i 0).val, hi0⟩ (1 : Fin 3) * 8 ≤ (i 1).val ∧ (i 1).val < win0_8.index ⟨(i 0).val, hi0⟩ (1 : Fin 3) * 8 + 8
    rw [e81]; omega
  | ⟨2, _⟩ =>
    show win0_8.index ⟨(i 0).val, hi0⟩ (2 : Fin 3) * 128 ≤ (i 2).val ∧ (i 2).val < win0_8.index ⟨(i 0).val, hi0⟩ (2 : Fin 3) * 128 + 128
    rw [e82]; omega

theorem final8 (c : Dev nD) : (dat0 V c).arrAt 8 cfg0.N
    = sqArr (V c main_v1) (V c main_v20) (V c main_arg1) (V c main_v21) (V c main_v22) (V c main_v23) :=
  (dat0 V c).arrAt_eq_of_cover 8 _ (fun t _ => flushed8 V c t) cover8

end Cert.KernelIdeal.Linear

end
-- ==== Proof.Finalise.lean ====
/-
  The finalising region, read as one function of the arrays it finds.

  Each of the five grid points loads rows 4000·t … 4000·t + 3999 of the pre-activation and of the residual input, and
  the one row each of the column mean, the column variance, the scale and the shift; it stores, for row `r` and column
  `q`,  residual + ((pre − mean q) · rsqrt (variance q + offset) · scale q + shift q).  The five blocks tile the result
  array, so after the region the array holds that expression at every index: `final`.
-/
import proofs.«145054_j83476984365555_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Finalise

open Cert.KernelIdeal Cert.KernelIdeal.Gen
open Idealize.ShloMosaic Idealize.ShloMosaic.TcCoe Idealize.SL.Sem Idealize.ShloMosaic.ValueIdx
open Idealize.ShloMosaic.Pipeline (Dat)

/-- One entry of the finalised array: the residual input plus the normalised, scaled and shifted pre-activation, the
    per-column statistics and parameters read from their one row. -/
def fin (xp hin : FVec Ideal S20000x128 .f32) (mean var gam bet : FVec Ideal S1x128 .f32) : FVec Ideal S20000x128 .f32 := fun i =>
  hin i + ((xp i - mean (ix2 (0 : Fin 1) (⟨(i 1).val, (i 1).isLt⟩ : Fin 128)))
      * Ideal.rsqrt (var (ix2 (0 : Fin 1) (⟨(i 1).val, (i 1).isLt⟩ : Fin 128)) + Ideal.ofBits .f32 0x3727C5AC#32)
      * gam (ix2 (0 : Fin 1) (⟨(i 1).val, (i 1).isLt⟩ : Fin 128)) + bet (ix2 (0 : Fin 1) (⟨(i 1).val, (i 1).isLt⟩ : Fin 128)))

/-- `fin` at row `p`, column `q`. -/
theorem fin_at (xp hin : FVec Ideal S20000x128 .f32) (mean var gam bet : FVec Ideal S1x128 .f32) (p : Fin 20000) (q : Fin 128) :
    fin xp hin mean var gam bet (ix2 p q)
      = hin (ix2 p q) + ((xp (ix2 p q) - mean (ix2 (0 : Fin 1) q)) * Ideal.rsqrt (var (ix2 (0 : Fin 1) q) + Ideal.ofBits .f32 0x3727C5AC#32)
          * gam (ix2 (0 : Fin 1) q) + bet (ix2 (0 : Fin 1) q)) := rfl

/-- The body's stored value at row `p`, column `q` of a block. -/
theorem pay_at (var : Vec Ideal S1x128 .f32) (xp : Vec Ideal S4000x128 .f32) (mean gam bet : Vec Ideal S1x128 .f32)
    (hin : Vec Ideal S4000x128 .f32) (p : Fin 4000) (q : Fin 128) :
    k1_pay1 (F := Ideal) var xp mean gam bet hin (ix2 p q)
      = hin (ix2 p q) + ((xp (ix2 p q) - mean (ix2 (0 : Fin 1) q)) * Ideal.rsqrt (var (ix2 (0 : Fin 1) q) + Ideal.ofBits .f32 0x3727C5AC#32)
          * gam (ix2 (0 : Fin 1) q) + bet (ix2 (0 : Fin 1) q)) := by
  unfold k1_pay1
  simp only [shapeCast_self]
  rw [addf_apply, addf_apply, mulf_apply, mulf_apply, subf_apply, broadcastTo_1b_ab_apply, broadcastTo_1b_ab_apply,
    broadcastTo_1b_ab_apply, broadcastTo_1b_ab_apply]
  rfl

theorem hz : (![0, 0] : Fin 2 → Nat) = fun _ => 0 := funext fun a => by fin_cases a <;> rfl

/-- The printed index maps over the five grid points: the two row-blocked inputs and the output sit at block row `t`,
    the four one-row operands at their only block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What grid point `t` writes back is block `t` of `fin` of the arrays as the region finds them. -/
theorem flushed (c : Dev nD) (t : Fin cfg1.N) :
    (dat1 V c).flushed 6 t = ((cfg1.win 6).blk t).view.read (Elt Ideal)
      (fin (V c main_v26_0) (V c main_arg0) (V c main_v41) (V c main_v42) (V c main_v24) (V c main_v25)) := by
  show (cfg1.win 6).cut (grid1.coords t) ((dat1 V c).after 6 t) = _
  rw [after1_6]
  unfold out1_6
  rw [View.canon_unit_zero hz]
  simp only [View.ld_unit_zero (S := S4000x128) hz, View.ld_unit_zero (S := S1x128) hz]
  obtain ⟨e00, e01, e10, e11, e20, e21, e30, e31, e40, e41, e50, e51, e60, e61⟩ := idx_facts t
  funext j
  obtain ⟨p, q, rfl⟩ : ∃ (p : Fin 4000) (q : Fin 128), j = ix2 p q := ⟨j 0, j 1, eq_ix2 j⟩
  refine (pay_at _ _ _ _ _ _ p q).trans ?_
  have h0 : ((cfg1.win 0).blk t).view.emb (ix2 p q) = ((cfg1.win 6).blk t).view.emb (ix2 p q) := by
    funext a; apply Fin.ext
    match a with
    | ⟨0, _⟩ => show win1_0.index t (0 : Fin 2) * 4000 + 1 * p.val = win1_6.index t (0 : Fin 2) * 4000 + 1 * p.val; omega
    | ⟨1, _⟩ => show win1_0.index t (1 : Fin 2) * 128 + 1 * q.val = win1_6.index t (1 : Fin 2) * 128 + 1 * q.val; omega
  have h1 : ((cfg1.win 1).blk t).view.emb (ix2 p q) = ((cfg1.win 6).blk t).view.emb (ix2 p q) := by
    funext a; apply Fin.ext
    match a with
    | ⟨0, _⟩ => show win1_1.index t (0 : Fin 2) * 4000 + 1 * p.val = win1_6.index t (0 : Fin 2) * 4000 + 1 * p.val; omega
    | ⟨1, _⟩ => show win1_1.index t (1 : Fin 2) * 128 + 1 * q.val = win1_6.index t (1 : Fin 2) * 128 + 1 * q.val; omega
  have h2 : ((cfg1.win 2).blk t).view.emb (ix2 (0 : Fin 1) q)
      = ix2 (0 : Fin 1) (⟨((((cfg1.win 6).blk t).view.emb (ix2 p q)) 1).val, ((((cfg1.win 6).blk t).view.emb (ix2 p q)) 1).isLt⟩ : Fin 128) := by
    funext a; apply Fin.ext
    match a with
    | ⟨0, _⟩ => show win1_2.index t (0 : Fin 2) * 1 + 1 * 0 = 0; omega
    | ⟨1, _⟩ => show win1_2.index t (1 : Fin 2) * 128 + 1 * q.val = win1_6.index t (1 : Fin 2) * 128 + 1 * q.val; omega
  have h3 : ((cfg1.win 3).blk t).view.emb (ix2 (0 : Fin 1) q)
      = ix2 (0 : Fin 1) (⟨((((cfg1.win 6).blk t).view.emb (ix2 p q)) 1).val, ((((cfg1.win 6).blk t).view.emb (ix2 p q)) 1).isLt⟩ : Fin 128) := by
    funext a; apply Fin.ext
    match a with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega
  have h4 : ((cfg1.win 4).blk t).view.emb (ix2 (0 : Fin 1) q)
      = ix2 (0 : Fin 1) (⟨((((cfg1.win 6).blk t).view.emb (ix2 p q)) 1).val, ((((cfg1.win 6).blk t).view.emb (ix2 p q)) 1).isLt⟩ : Fin 128) := by
    funext a; apply Fin.ext
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  have h5 : ((cfg1.win 5).blk t).view.emb (ix2 (0 : Fin 1) q)
      = ix2 (0 : Fin 1) (⟨((((cfg1.win 6).blk t).view.emb (ix2 p q)) 1).val, ((((cfg1.win 6).blk t).view.emb (ix2 p q)) 1).isLt⟩ : Fin 128) := by
    funext a; apply Fin.ext
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  have a0 : iblk1 V c 0 t (ix2 p q) = V c main_v26_0 (((cfg1.win 6).blk t).view.emb (ix2 p q)) := congrArg (V c main_v26_0) h0
  have a1 : iblk1 V c 1 t (ix2 p q) = V c main_arg0 (((cfg1.win 6).blk t).view.emb (ix2 p q)) := congrArg (V c main_arg0) h1
  have a2 : iblk1 V c 2 t (ix2 (0 : Fin 1) q) = V c main_v41 _ := congrArg (V c main_v41) h2
  have a3 : iblk1 V c 3 t (ix2 (0 : Fin 1) q) = V c main_v42 _ := congrArg (V c main_v42) h3
  have a4 : iblk1 V c 4 t (ix2 (0 : Fin 1) q) = V c main_v24 _ := congrArg (V c main_v24) h4
  have a5 : iblk1 V c 5 t (ix2 (0 : Fin 1) q) = V c main_v25 _ := congrArg (V c main_v25) h5
  rw [a0, a1, a2, a3, a4, a5]
  rfl

/-- An index of the result array is in point `t`'s block iff each coordinate is in the block's range on its axis. -/
theorem mem_blk (t : Fin cfg1.N) (i : S20000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v43).slice (win1_6.rect t)).set ↔ _
  rw [View.set_slice_whole, Rect.mem_set_unit]
  exact Iff.rfl

/-- Every row of the result lies in the block of the point numbered by the row's tile. -/
theorem cover (i : S20000x128.Idx) : ∃ t : Fin cfg1.N, (cfg1.win 6).flush t = true ∧ i ∈ ((cfg1.win 6).blk t).view.set := by
  have hi0 : (i 0).val < 20000 := (i 0).isLt
  have hi1 : (i 1).val < 128 := (i 1).isLt
  have ht : (i 0).val / 4000 < 5 := by omega
  obtain ⟨-, -, -, -, -, -, -, -, -, -, -, -, e60, e61⟩ := idx_facts ⟨(i 0).val / 4000, ht⟩
  refine ⟨⟨(i 0).val / 4000, ht⟩, flush1_6 _, ?_⟩
  rw [mem_blk]
  intro a
  match a with
  | ⟨0, _⟩ =>
    show win1_6.index ⟨(i 0).val / 4000, ht⟩ (0 : Fin 2) * 4000 ≤ (i 0).val ∧ (i 0).val < win1_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win1_6.index ⟨(i 0).val / 4000, ht⟩ (1 : Fin 2) * 128 ≤ (i 1).val ∧ (i 1).val < win1_6.index ⟨(i 0).val / 4000, ht⟩ (1 : Fin 2) * 128 + 128
    rw [e61]; omega

/-- THE RESULT ARRAY after the finalising region, as one function of the arrays the region finds. -/
theorem final (c : Dev nD) : (dat1 V c).arrAt 6 cfg1.N
    = fin (V c main_v26_0) (V c main_arg0) (V c main_v41) (V c main_v42) (V c main_v24) (V c main_v25) :=
  (dat1 V c).arrAt_eq_of_cover 6 _ (fun t _ => flushed V c t) cover

end Cert.KernelIdeal.Finalise

end
-- ==== Proof.Between.lean ====
/-
  The host stretch between the two regions, read at an index.

  From the two statistics arrays (five slabs, eight identical sublanes each) it takes sublane 0 of every slab, adds the
  five rows, divides by the row count 20000 to get the column means and the column means of squares, forms
  "mean of squares − squared mean" clamped at zero, and re-lays mean and variance as 1×128 rows for the finalising region.
  Buffers it does not write are read through it unchanged.
-/
import proofs.«145054_j83476984365555_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Between

open Cert.KernelIdeal Cert.KernelIdeal.Gen
open Idealize.ShloMosaic Idealize.ShloMosaic.TcCoe Idealize.SL.Sem Idealize.ShloMosaic.ValueIdx
open Idealize.ShloMosaic.Pipeline (Dat)

/-- The host's total over the five tiles of a statistics array, at column `q`: sublane 0 of each slab is taken, the slabs
    are laid as five rows, and the rows are added to the initial value. -/
theorem tileTotal (X : FVec Ideal S5x8x128 .f32) (q : Fin 128) :
    Host.reduceAdd (shapeCast S5x128 (extractStridedSlice S5x1x128 ![0, 0, 0] X slices_S5x8x128_S5x1x128_0_0_0) shapeCasts_S5x1x128_S5x128)
        (constant (F := Ideal) S_ .f32 0x00000000#32) reducesTo_S5x128_S128_d0 h_S_ (ix1 q)
      = Ideal.ofBits .f32 0x00000000#32 + ∑ t : Fin 5, X (ix3 t (0 : Fin 8) q) := by
  simp only [Host.reduceAdd, Ideal.hostReduceAdd_def]
  rw [Ideal.hostReduceAdd_single reducesTo_S5x128_S128_d0 (by decide)]
  refine congrArg₂ (· + ·) rfl (Finset.sum_congr rfl fun t _ => ?_)
  have hl : (by decide : S5x128.Reduces [0] S128).lift (ix1 q) t = ix2 t q := funext fun a => Fin.ext (by match a with | ⟨0, _⟩ => rfl | ⟨1, _⟩ => rfl)
  rw [hl]
  refine (shapeCast_apply _ shapeCasts_S5x1x128_S5x128 (ix2 t q) (ix3 t (0 : Fin 1) q) ?_).trans ?_
  · rw [Shape.rowMajor_val_two, Shape.rowMajor_val_three]
    show (t.val * 1 + 0) * 128 + q.val = t.val * 128 + q.val
    omega
  · exact slice3_axis1_apply 0 X slices_S5x8x128_S5x1x128_0_0_0 t (0 : Fin 1) q (0 : Fin 8) rfl

variable (W : Valuation τ sig (Elt Ideal))

/-- The mean row the second host stretch leaves, at column `q`: the five tiles' column sums, totalled and divided by the
    row count. -/
theorem mean_at (X1 : FVec Ideal S5x8x128 .f32) (h1 : W (Proc.devRef .tc main_v26_1) = X1) (q : Fin 128) :
    StableHlo.after hostOps1 W (Proc.devRef .tc main_v41) (ix2 (0 : Fin 1) q)
      = Ideal.div (Ideal.ofBits .f32 0x00000000#32 + ∑ t : Fin 5, X1 (ix3 t (0 : Fin 8) q)) (Ideal.ofBits .f32 0x469C4000#32) := by
  subst h1
  have e : StableHlo.after hostOps1 W (Proc.devRef .tc main_v41)
      = shapeCast S1x128 (Host.divf
          (Host.reduceAdd (shapeCast S5x128 (extractStridedSlice S5x1x128 ![0, 0, 0] (W (Proc.devRef .tc main_v26_1)) slices_S5x8x128_S5x1x128_0_0_0) shapeCasts_S5x1x128_S5x128)
            (constant (F := Ideal) S_ .f32 0x00000000#32) reducesTo_S5x128_S128_d0 h_S_)
          (broadcastInDim S128 ![] bcast_S_S128 (constant (F := Ideal) S_ .f32 0x469C4000#32))) shapeCasts_S128_S1x128 := by
    after_results; rfl
  rw [e]
  refine (shapeCast_a_1a_apply _ shapeCasts_S128_S1x128 (0 : Fin 1) q).trans ?_
  exact congrArg₂ Ideal.div (tileTotal _ q) rfl

/-- The variance row the second host stretch leaves, at column `q`: mean of squares minus squared mean, clamped at zero. -/
theorem var_at (X1 X2 : FVec Ideal S5x8x128 .f32) (h1 : W (Proc.devRef .tc main_v26_1) = X1) (h2 : W (Proc.devRef .tc main_v26_2) = X2) (q : Fin 128) :
    @Eq EReal (StableHlo.after hostOps1 W (Proc.devRef .tc main_v42) (ix2 (0 : Fin 1) q))
      (max (Ideal.div (Ideal.ofBits .f32 0x00000000#32 + ∑ t : Fin 5, X2 (ix3 t (0 : Fin 8) q)) (Ideal.ofBits .f32 0x469C4000#32)
          - Ideal.div (Ideal.ofBits .f32 0x00000000#32 + ∑ t : Fin 5, X1 (ix3 t (0 : Fin 8) q)) (Ideal.ofBits .f32 0x469C4000#32)
            * Ideal.div (Ideal.ofBits .f32 0x00000000#32 + ∑ t : Fin 5, X1 (ix3 t (0 : Fin 8) q)) (Ideal.ofBits .f32 0x469C4000#32))
          (Ideal.ofBits .f32 0x00000000#32)) := by
  subst h1 h2
  have e : StableHlo.after hostOps1 W (Proc.devRef .tc main_v42)
      = shapeCast S1x128 (maximumf (subf
          (Host.divf
            (Host.reduceAdd (shapeCast S5x128 (extractStridedSlice S5x1x128 ![0, 0, 0] (W (Proc.devRef .tc main_v26_2)) slices_S5x8x128_S5x1x128_0_0_0) shapeCasts_S5x1x128_S5x128)
              (constant (F := Ideal) S_ .f32 0x00000000#32) reducesTo_S5x128_S128_d0 h_S_)
            (broadcastInDim S128 ![] bcast_S_S128 (constant (F := Ideal) S_ .f32 0x469C4000#32)))
          (mulf
            (Host.divf
              (Host.reduceAdd (shapeCast S5x128 (extractStridedSlice S5x1x128 ![0, 0, 0] (W (Proc.devRef .tc main_v26_1)) slices_S5x8x128_S5x1x128_0_0_0) shapeCasts_S5x1x128_S5x128)
                (constant (F := Ideal) S_ .f32 0x00000000#32) reducesTo_S5x128_S128_d0 h_S_)
              (broadcastInDim S128 ![] bcast_S_S128 (constant (F := Ideal) S_ .f32 0x469C4000#32)))
            (Host.divf
              (Host.reduceAdd (shapeCast S5x128 (extractStridedSlice S5x1x128 ![0, 0, 0] (W (Proc.devRef .tc main_v26_1)) slices_S5x8x128_S5x1x128_0_0_0) shapeCasts_S5x1x128_S5x128)
                (constant (F := Ideal) S_ .f32 0x00000000#32) reducesTo_S5x128_S128_d0 h_S_)
              (broadcastInDim S128 ![] bcast_S_S128 (constant (F := Ideal) S_ .f32 0x469C4000#32)))))
          (broadcastInDim S128 ![] bcast_S_S128 (constant (F := Ideal) S_ .f32 0x00000000#32))) shapeCasts_S128_S1x128 := by
    after_results; rfl
  rw [e]
  refine (shapeCast_a_1a_apply _ shapeCasts_S128_S1x128 (0 : Fin 1) q).trans ?_
  exact congrArg₂ max (congrArg₂ (· - ·) (congrArg₂ Ideal.div (tileTotal _ q) rfl)
    (congrArg₂ (· * ·) (congrArg₂ Ideal.div (tileTotal _ q) rfl) (congrArg₂ Ideal.div (tileTotal _ q) rfl))) rfl

/-- A buffer the second host stretch does not write is read through it unchanged. -/
theorem keep_v26_0 : StableHlo.after hostOps1 W (Proc.devRef .tc main_v26_0) = W (Proc.devRef .tc main_v26_0) := by after_results
theorem keep_v24 : StableHlo.after hostOps1 W (Proc.devRef .tc main_v24) = W (Proc.devRef .tc main_v24) := by after_results
theorem keep_v25 : StableHlo.after hostOps1 W (Proc.devRef .tc main_v25) = W (Proc.devRef .tc main_v25) := by after_results

end Cert.KernelIdeal.Between

end
-- ==== Proof.Whole.lean ====
/-
  The idealized kernel's result array as one function of its arguments.

  The finalising region leaves `Finalise.fin` of what it finds; it finds the normalised array the linear region left
  (`U`), the launch input, the mean and variance rows the host stretch between the regions computed from the linear
  region's per-tile sums, and the scale and shift rows the first host stretch laid out. Read together at row `p`,
  column `q` this is `Layer.outK`: `result_at`. The first host stretch's own results (the two weight blocks, the three
  1×128 rows, the degree column) are read back at an index.
-/
import proofs.«145054_j83476984365555_2_alg».proof.Proof.Gen.KernelIdeal.Frame
import proofs.«145054_j83476984365555_2_alg».proof.Proof.Layer
import proofs.«145054_j83476984365555_2_alg».proof.Proof.Linear
import proofs.«145054_j83476984365555_2_alg».proof.Proof.Finalise
import proofs.«145054_j83476984365555_2_alg».proof.Proof.Between
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The normalised array the linear region leaves, from the arrays the first host stretch leaves. -/
abbrev U (c : Dev nD) : FVec Ideal S20000x128 .f32 :=
  Linear.unitArr (V1 m ρ c main_v1) (V1 m ρ c main_v20) (V1 m ρ c main_arg1) (V1 m ρ c main_v21) (V1 m ρ c main_v22) (V1 m ρ c main_v23)

/-- THE RESULT ARRAY at row `p`, column `q`: the kernel's spelling of the layer's output over the normalised array. -/
theorem result_at (c : Dev nD) (p : Fin 20000) (q : Fin 128) :
    W4 m ρ c (Proc.devRef .tc main_v43) (ix2 p q)
      = Cert.Layer.outK (m ((c : Thread nD τ).loc main_arg0)) (U m ρ c) (V1 m ρ c main_v24) (V1 m ρ c main_v25) p q := by
  have hA : W4 m ρ c (Proc.devRef .tc main_v43)
      = Finalise.fin (V3 m ρ c main_v26_0) (V3 m ρ c main_arg0) (V3 m ρ c main_v41) (V3 m ρ c main_v42) (V3 m ρ c main_v24) (V3 m ρ c main_v25) :=
    (W4_arr m ρ c 6).trans (Finalise.final (V3 m ρ) c)
  have h_pre : V3 m ρ c main_v26_0 = U m ρ c :=
    (Between.keep_v26_0 (W2 m ρ c)).trans ((W2_arr m ρ c 6).trans (Linear.final6 (V1 m ρ) c))
  have h_sum := (W2_arr m ρ c 7).trans (Linear.final7 (V1 m ρ) c)
  have h_sq := (W2_arr m ρ c 8).trans (Linear.final8 (V1 m ρ) c)
  have h_mean : V3 m ρ c main_v41 (ix2 (0 : Fin 1) q) = _ := Between.mean_at (W2 m ρ c) _ h_sum q
  have h_var : @Eq EReal (V3 m ρ c main_v42 (ix2 (0 : Fin 1) q)) _ := Between.var_at (W2 m ρ c) _ _ h_sum h_sq q
  have h_g : V3 m ρ c main_v24 = V1 m ρ c main_v24 := (Between.keep_v24 (W2 m ρ c)).trans (W2_of_ne m ρ c main_v24 (by decide))
  have h_b : V3 m ρ c main_v25 = V1 m ρ c main_v25 := (Between.keep_v25 (W2 m ρ c)).trans (W2_of_ne m ρ c main_v25 (by decide))
  have h_h : V3 m ρ c main_arg0 = m ((c : Thread nD τ).loc main_arg0) :=
    ((W4_arr m ρ c 1).trans (((dat1 (V3 m ρ) c).arrAt_in 1 rfl _).trans (A_eq1 (V3 m ρ) c 1))).symm.trans (W4_main_arg0 m ρ c)
  rw [hA, Finalise.fin_at, h_h, h_pre, h_mean, h_var, h_g, h_b]
  rfl

/-! ## What the first host stretch leaves, at an index -/

theorem V1_nrm (c : Dev nD) : V1 m ρ c main_arg1 = m ((c : Thread nD τ).loc main_arg1) := by
  show StableHlo.after hostOps0 (W0 m ρ c) (Proc.devRef .tc main_arg1) = _
  after_results <;> rfl

/-- The upper weight block is rows 0 … 127 of the weight matrix, the lower block rows 128 … 255. -/
theorem V1_W1_at (c : Dev nD) (k q : Fin 128) :
    V1 m ρ c main_v21 (ix2 k q) = m ((c : Thread nD τ).loc main_arg4) (ix2 (⟨k.val, by omega⟩ : Fin 256) q) := by
  have e : V1 m ρ c main_v21 = extractStridedSlice S128x128 ![0, 0] (m ((c : Thread nD τ).loc main_arg4)) slices_S256x128_S128x128_0_0 := by
    show StableHlo.after hostOps0 (W0 m ρ c) (Proc.devRef .tc main_v21) = _
    after_results <;> rfl
  rw [e]
  exact slice2_axis0_apply 0 _ slices_S256x128_S128x128_0_0 k q (⟨k.val, by omega⟩ : Fin 256) (by show k.val = 0 + k.val; omega)

theorem V1_W2_at (c : Dev nD) (k q : Fin 128) :
    V1 m ρ c main_v22 (ix2 k q) = m ((c : Thread nD τ).loc main_arg4) (ix2 (⟨128 + k.val, by omega⟩ : Fin 256) q) := by
  have e : V1 m ρ c main_v22 = extractStridedSlice S128x128 ![128, 0] (m ((c : Thread nD τ).loc main_arg4)) slices_S256x128_S128x128_128_0 := by
    show StableHlo.after hostOps0 (W0 m ρ c) (Proc.devRef .tc main_v22) = _
    after_results <;> rfl
  rw [e]
  exact slice2_axis0_apply 128 _ slices_S256x128_S128x128_128_0 k q (⟨128 + k.val, by omega⟩ : Fin 256) rfl

/-- The bias, the scale and the shift are their 128-vectors laid as one row. -/
theorem V1_b_at (c : Dev nD) (q : Fin 128) : V1 m ρ c main_v23 (ix2 (0 : Fin 1) q) = m ((c : Thread nD τ).loc main_arg5) (ix1 q) := by
  have e : V1 m ρ c main_v23 = shapeCast S1x128 (m ((c : Thread nD τ).loc main_arg5)) shapeCasts_S128_S1x128 := by
    show StableHlo.after hostOps0 (W0 m ρ c) (Proc.devRef .tc main_v23) = _
    after_results <;> rfl
  rw [e]
  exact shapeCast_a_1a_apply _ shapeCasts_S128_S1x128 (0 : Fin 1) q
theorem V1_g_at (c : Dev nD) (q : Fin 128) : V1 m ρ c main_v24 (ix2 (0 : Fin 1) q) = m ((c : Thread nD τ).loc main_arg6) (ix1 q) := by
  have e : V1 m ρ c main_v24 = shapeCast S1x128 (m ((c : Thread nD τ).loc main_arg6)) shapeCasts_S128_S1x128 := by
    show StableHlo.after hostOps0 (W0 m ρ c) (Proc.devRef .tc main_v24) = _
    after_results <;> rfl
  rw [e]
  exact shapeCast_a_1a_apply _ shapeCasts_S128_S1x128 (0 : Fin 1) q
theorem V1_be_at (c : Dev nD) (q : Fin 128) : V1 m ρ c main_v25 (ix2 (0 : Fin 1) q) = m ((c : Thread nD τ).loc main_arg7) (ix1 q) := by
  have e : V1 m ρ c main_v25 = shapeCast S1x128 (m ((c : Thread nD τ).loc main_arg7)) shapeCasts_S128_S1x128 := by
    show StableHlo.after hostOps0 (W0 m ρ c) (Proc.devRef .tc main_v25) = _
    after_results <;> rfl
  rw [e]
  exact shapeCast_a_1a_apply _ shapeCasts_S128_S1x128 (0 : Fin 1) q

/-- The normalised array's entry is `Layer.unit` of the arrays the first host stretch leaves. -/
theorem U_at (c : Dev nD) (p : Fin 20000) (q : Fin 128) :
    U m ρ c (ix2 p q) = Cert.Layer.unit (V1 m ρ c main_v1) (V1 m ρ c main_v20) (V1 m ρ c main_arg1) (V1 m ρ c main_v21) (V1 m ρ c main_v22)
      (V1 m ρ c main_v23) p q := rfl

end Cert.KernelIdeal.Whole

end
-- ==== Proof.RefValue.lean ====
/-
  The reference program's result, read through its generated stages.

  Its last twenty-six operations are the batch normalisation and the residual over the normalised array (stage 35):
  `out_at` reads them as `Layer.outR`. Stage 35 itself is the pre-activation over the 256 joined coordinates divided
  by the row's clamped norm and scaled by the degree factor: `unit_at`. The joined operand (a concatenation along the
  coordinate axis) has the scaled features as its left half and the neighbour means as its right half: `cat_left`,
  `cat_right`.
-/
import proofs.«145054_j83476984365555_2_alg».proof.Proof.Gen.ReferenceIdeal.Read
import proofs.«145054_j83476984365555_2_alg».proof.Proof.Layer
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable (x0 : FVec Ideal S20000x128 .f32) (x1 : FVec Ideal S20000x1 .f32) (x2 x3 : IVec S640000 32)
  (x4 : FVec Ideal S256x128 .f32) (x5 x6 x7 : FVec Ideal S128 .f32)

/-- The reference's result at row `p`, column `q`, over its normalised array (stage 35): the reference's spelling of the
    batch normalisation and the residual. -/
theorem out_at (p : Fin 20000) (q : Fin 128) :
    val_main_v61 (F := Ideal) x0 x1 x2 x3 x4 x5 x6 x7 (ix2 p q)
      = Cert.Layer.outR x0 (val_main_v35 (F := Ideal) x0 x1 x2 x3 x4 x5) x6 x7 p q := by
  have e1 : ∀ a : Fin 20000, idx_main_v58 (idx_main_v59 (ix2 a q)) = ix1 q := fun a => funext fun d => Fin.ext (by match d with | ⟨0, _⟩ => rfl)
  have e2 : ∀ a : Fin 20000, idx_main_v55 (idx_main_v56 (ix2 a q)) = ix1 q := fun a => funext fun d => Fin.ext (by match d with | ⟨0, _⟩ => rfl)
  have e3 : ∀ a : Fin 20000, idx_main_v52 (idx_main_v53 (ix2 a q)) = ix1 q := fun a => funext fun d => Fin.ext (by match d with | ⟨0, _⟩ => rfl)
  have e4 : ∀ a : Fin 20000, idx_main_v46 (idx_main_v47 (ix2 a q)) = ix1 q := fun a => funext fun d => Fin.ext (by match d with | ⟨0, _⟩ => rfl)
  have e5 : ∀ a : Fin 20000, idx_main_v39 (idx_main_v40 (ix2 a q)) = ix1 q := fun a => funext fun d => Fin.ext (by match d with | ⟨0, _⟩ => rfl)
  have e6 : ∀ k : Fin 20000, idx_main_v43 (ix1 q) k = ix2 k q := fun k => funext fun d => Fin.ext (by match d with | ⟨0, _⟩ => rfl | ⟨1, _⟩ => rfl)
  have e7 : ∀ k : Fin 20000, idx_main_v36 (ix1 q) k = ix2 k q := fun k => funext fun d => Fin.ext (by match d with | ⟨0, _⟩ => rfl | ⟨1, _⟩ => rfl)
  unfold Cert.Layer.outR Cert.Layer.varR Cert.Layer.meanR
  simp only [val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, val_main_cst_10_apply, val_main_v48_apply, val_main_v47_apply, val_main_v46_apply, val_main_v45_apply,
    val_main_v44_apply, val_main_cst_9_apply, val_main_v43_apply, val_main_cst_8_apply, val_main_v42_apply, val_main_v41_apply,
    val_main_v40_apply, val_main_v39_apply, val_main_v38_apply, val_main_v37_apply, val_main_cst_7_apply, val_main_v36_apply,
    val_main_cst_6_apply, e1, e2, e3, e4, e5, e6, e7]
  rfl

/-- The reference's normalised array (stage 35) at row `p`, column `q`: the pre-activation over the 256 joined coordinates,
    divided by the row's clamped norm, times the row's degree factor. -/
theorem unit_at (p : Fin 20000) (q : Fin 128) :
    val_main_v35 (F := Ideal) x0 x1 x2 x3 x4 x5 (ix2 p q)
      = Ideal.div (Cert.Layer.linJoined (val_main_v21 (F := Ideal) x0 x1 x2 x3) x4 x5 p q)
          (max (Ideal.sqrt (Ideal.ofBits .f32 0x00000000#32 + ∑ j : Fin 128,
              Cert.Layer.linJoined (val_main_v21 (F := Ideal) x0 x1 x2 x3) x4 x5 p j * Cert.Layer.linJoined (val_main_v21 (F := Ideal) x0 x1 x2 x3) x4 x5 p j))
            (Ideal.ofBits .f32 0x2B8CBCCC#32))
        * x1 (ix2 p (0 : Fin 1)) := by
  have e1 : idx_main_v34 (ix2 p q) = ix2 p (0 : Fin 1) := funext fun d => Fin.ext (by match d with | ⟨0, _⟩ => rfl | ⟨1, _⟩ => rfl)
  have e2 : idx_main_v28 (idx_main_v32 (ix2 p q)) = ix1 p := funext fun d => Fin.ext (by match d with | ⟨0, _⟩ => rfl)
  have e2' : idx_main_v30 (idx_main_v32 (ix2 p q)) = ix0 := funext fun d => d.elim0
  have e3 : ∀ j : Fin 128, idx_main_v27 (ix1 p) j = ix2 p j := fun j => funext fun d => Fin.ext (by match d with | ⟨0, _⟩ => rfl | ⟨1, _⟩ => rfl)
  have e4 : ∀ j : Fin 128, idx_main_v23 (idx_main_v24 (ix2 p j)) = ix1 j := fun j => funext fun d => Fin.ext (by match d with | ⟨0, _⟩ => rfl)
  have e5 : ∀ (j : Fin 128) (k : Fin 256), lidx_main_v22 (ix2 p j) k = ix2 p k := fun j k => funext fun d => Fin.ext (by match d with | ⟨0, _⟩ => rfl | ⟨1, _⟩ => rfl)
  have e6 : ∀ (j : Fin 128) (k : Fin 256), ridx_main_v22 (ix2 p j) k = ix2 k j := fun j k => funext fun d => Fin.ext (by match d with | ⟨0, _⟩ => rfl | ⟨1, _⟩ => rfl)
  unfold Cert.Layer.linJoined
  simp only [val_main_v35_apply, val_main_v34_apply, val_main_v33_apply, val_main_v32_apply, val_main_v31_apply, val_main_v30_apply,
    val_main_cst_5_apply, val_main_v29_apply, val_main_v28_apply, val_main_v27_apply, val_main_cst_4_apply, val_main_v26_apply,
    val_main_v25_apply, val_main_v24_apply, val_main_v23_apply, val_main_v22_apply, e1, e2, e2', e3, e4, e5, e6]
  rfl

/-- The joined operand's left half is the scaled features, its right half the neighbour means. -/
theorem cat_left (p : Fin 20000) (k : Fin 128) :
    val_main_v21 (F := Ideal) x0 x1 x2 x3 (ix2 p (⟨k.val, by omega⟩ : Fin 256)) = val_main_v1 (F := Ideal) x0 x1 (ix2 p k) := by
  unfold val_main_v21
  exact concatenate_pair_apply_left (t := S20000x256) (s₁ := S20000x128) (s₂ := S20000x128) (1 : Fin 2) _ _ concatenates_S20000x128_S20000x128_S20000x256_d1
    (ix2 p (⟨k.val, by omega⟩ : Fin 256)) rfl (ix2 p k)
    (fun b => by match b with | ⟨0, _⟩ => rfl | ⟨1, _⟩ => rfl)

theorem cat_right (p : Fin 20000) (k : Fin 128) :
    val_main_v21 (F := Ideal) x0 x1 x2 x3 (ix2 p (⟨128 + k.val, by omega⟩ : Fin 256)) = val_main_v20 (F := Ideal) x0 x1 x2 x3 (ix2 p k) := by
  unfold val_main_v21
  exact concatenate_pair_apply_right (t := S20000x256) (s₁ := S20000x128) (s₂ := S20000x128) (1 : Fin 2) _ _ concatenates_S20000x128_S20000x128_S20000x256_d1
    (ix2 p (⟨128 + k.val, by omega⟩ : Fin 256)) rfl rfl (ix2 p k)
    (fun b hb => by match b with | ⟨0, _⟩ => rfl | ⟨1, _⟩ => exact absurd rfl hb)
    (by show k.val + 128 = 128 + k.val; omega)

end Cert.ReferenceIdeal.RefValue

end
-- ==== Proof.lean ====
/-
  The proof of `Cert.Claim`.

  The layer: scaled node features `hs = h · n`; the mean over incoming edges `c` of the sources' scaled features (a gather
  and two scatter-adds — the same operations on both sides, so both sides hold ONE array `c`, which is never opened);
  the linear layer on `[hs, c]`; each row divided by its Euclidean norm clamped from below, and scaled by `n`; batch
  normalisation over the 20000 rows; the residual `h`.

  The kernel splits the product in two halves, takes the batch sums tile by tile, writes the variance as "mean of
  squares − squared mean" clamped at zero, and multiplies by `rsqrt`; the reference takes one product over the joined
  operand, sums over all rows, writes the variance as the mean of squared deviations, and divides by `sqrt`. On the
  extended reals the two results are equal element by element: regrouping a sum is free; the normalised rows are REAL
  numbers as soon as the degree column `n` is (whatever `c` holds: a row over its clamped norm is finite, the quotient
  being 0 when the norm is infinite) — this is the one use of the precondition —; and on reals the two variances are
  one number and a positive number's `rsqrt` is the inverse of its root.

  The three frames are the generated ones (the reference's is its generated run with the result dropped); the ideal
  pass rewrote nothing, so `preserves` is `True`.
-/
import proofs.«145054_j83476984365555_2_alg».proof.Defs
import proofs.«145054_j83476984365555_2_alg».proof.Proof.Gen.Kernel
import proofs.«145054_j83476984365555_2_alg».proof.Proof.Gen.Kernel.Skeleton
import proofs.«145054_j83476984365555_2_alg».proof.Proof.Gen.Kernel.Launch
import proofs.«145054_j83476984365555_2_alg».proof.Proof.Gen.Kernel.Points
import proofs.«145054_j83476984365555_2_alg».proof.Proof.Gen.Kernel.Frame
import proofs.«145054_j83476984365555_2_alg».proof.Proof.Gen.KernelIdeal
import proofs.«145054_j83476984365555_2_alg».proof.Proof.Gen.KernelIdeal.Skeleton
import proofs.«145054_j83476984365555_2_alg».proof.Proof.Gen.KernelIdeal.Launch
import proofs.«145054_j83476984365555_2_alg».proof.Proof.Gen.KernelIdeal.Points
import proofs.«145054_j83476984365555_2_alg».proof.Proof.Gen.KernelIdeal.Frame
import proofs.«145054_j83476984365555_2_alg».proof.Proof.Gen.ReferenceIdeal
import proofs.«145054_j83476984365555_2_alg».proof.Proof.Gen.Pre_finite_inputs
import proofs.«145054_j83476984365555_2_alg».proof.Proof.Gen.ReferenceIdeal.Run
import proofs.«145054_j83476984365555_2_alg».proof.Proof.Gen.ReferenceIdeal.Read
import proofs.«145054_j83476984365555_2_alg».proof.Proof.Layer
import proofs.«145054_j83476984365555_2_alg».proof.Proof.FiniteNorm
import proofs.«145054_j83476984365555_2_alg».proof.Proof.ResultRun
import proofs.«145054_j83476984365555_2_alg».proof.Proof.Whole
import proofs.«145054_j83476984365555_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

section Join

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The scaled features the kernel's first host stretch leaves are the reference's stage 1 of the same arguments. -/
theorem glue_hs : Cert.KernelIdeal.Gen.V1 m ρ c Cert.KernelIdeal.main_v1 = Cert.ReferenceIdeal.Read.val_main_v1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v1) = _
  after_results <;> rfl

set_option maxHeartbeats 4000000 in
/-- The neighbour means the kernel's first host stretch leaves are the reference's stage 20 of the same arguments: the
    gather, the two scatter-adds and the division are the same operations on both sides. -/
theorem glue_cc : Cert.KernelIdeal.Gen.V1 m ρ c Cert.KernelIdeal.main_v20
    = Cert.ReferenceIdeal.Read.val_main_v20 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  show StableHlo.after Cert.KernelIdeal.Gen.hostOps0 (Cert.KernelIdeal.Gen.W0 m ρ c) (Proc.devRef .tc Cert.KernelIdeal.main_v20) = _
  after_results_simp <;> rfl

/-- The two normalised arrays are one array. -/
theorem unit_arrays : Cert.ReferenceIdeal.Read.val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    = Cert.KernelIdeal.Whole.U m ρ c := by
  funext j
  obtain ⟨p, q, rfl⟩ : ∃ (p : Fin 20000) (q : Fin 128), j = ix2 p q := ⟨j 0, j 1, eq_ix2 j⟩
  rw [Cert.ReferenceIdeal.RefValue.unit_at, Cert.KernelIdeal.Whole.U_at, Cert.KernelIdeal.Whole.V1_nrm]
  exact (Cert.Layer.unit_eq_joined (Cert.KernelIdeal.Gen.V1 m ρ c Cert.KernelIdeal.main_v1) (Cert.KernelIdeal.Gen.V1 m ρ c Cert.KernelIdeal.main_v20) (m ((c.tc : Thread Cert.KernelIdeal.nD Cert.KernelIdeal.τ).loc Cert.KernelIdeal.main_arg1))
    (Cert.KernelIdeal.Gen.V1 m ρ c Cert.KernelIdeal.main_v21) (Cert.KernelIdeal.Gen.V1 m ρ c Cert.KernelIdeal.main_v22) (Cert.KernelIdeal.Gen.V1 m ρ c Cert.KernelIdeal.main_v23)
    (Cert.ReferenceIdeal.Read.val_main_v21 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (fun p k => (Cert.ReferenceIdeal.RefValue.cat_left _ _ _ _ p k).trans (congrFun (glue_hs m ρ c).symm _))
    (fun p k => (Cert.ReferenceIdeal.RefValue.cat_right _ _ _ _ p k).trans (congrFun (glue_cc m ρ c).symm _))
    (Cert.KernelIdeal.Whole.V1_W1_at m ρ c) (Cert.KernelIdeal.Whole.V1_W2_at m ρ c) (Cert.KernelIdeal.Whole.V1_b_at m ρ c) p q).symm

/-- THE TWO RESULTS ARE EQUAL: the reference's result term, at arguments agreeing with the kernel's, is the array the
    kernel's last region leaves. -/
theorem result_eq (m' : (ℓ : Loc Cert.ReferenceIdeal.nD Cert.ReferenceIdeal.τ Cert.ReferenceIdeal.sig) → Buf (Elt Ideal) ℓ)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1)
    (h0 : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0)))
    (h1 : m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1)))
    (h2 : m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2)))
    (h3 : m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3)))
    (h4 : m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4)))
    (h5 : m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5)))
    (h6 : m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6)))
    (h7 : m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7))) :
    Cert.ReferenceIdeal.Value.res_main_v61 m' c = Cert.KernelIdeal.Gen.W4 m ρ c (Proc.devRef .tc Cert.KernelIdeal.main_v43) := by
  rw [Cert.ReferenceIdeal.Read.val_main_v61_eq, h0, h1, h2, h3, h4, h5, h6, h7]
  funext i
  obtain ⟨p, q, rfl⟩ : ∃ (p : Fin 20000) (q : Fin 128), i = ix2 p q := ⟨i 0, i 1, eq_ix2 i⟩
  rw [Cert.ReferenceIdeal.RefValue.out_at, unit_arrays m ρ c]
  refine Eq.trans ?_ (Cert.KernelIdeal.Whole.result_at m ρ c p q).symm
  refine (Cert.Layer.outK_eq_outR (m ((c.tc : Thread Cert.KernelIdeal.nD Cert.KernelIdeal.τ).loc Cert.KernelIdeal.main_arg0)) (Cert.KernelIdeal.Whole.U m ρ c) (Cert.KernelIdeal.Gen.V1 m ρ c Cert.KernelIdeal.main_v24) (Cert.KernelIdeal.Gen.V1 m ρ c Cert.KernelIdeal.main_v25)
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (fun i' q' => ?_) (Cert.KernelIdeal.Whole.V1_g_at m ρ c) (Cert.KernelIdeal.Whole.V1_be_at m ρ c) p q).symm
  rw [Cert.KernelIdeal.Whole.U_at]
  refine Cert.Layer.unit_real _ _ _ _ _ _ i' q' ?_
  rw [Cert.KernelIdeal.Whole.V1_nrm]
  exact Cert.FiniteNorm.norm_real _ _ _ _ _ _ _ _ hpre (ix2 i' (0 : Fin 1))

end Join

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Gen.W4 m ρ c (Proc.devRef .tc Cert.KernelIdeal.main_v43), Cert.KernelIdeal.Result.run m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4, a5, a6, a7⟩ := hagree c
  exact result_eq m ρ c m' (hpre c) a0 a1 a2 a3 a4 a5 a6 a7

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
